-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S2x16 : Shape := ⟨2, ![2, 16]⟩
abbrev S16 : Shape := ⟨1, ![16]⟩
abbrev S16x1 : Shape := ⟨2, ![16, 1]⟩
abbrev S1 : Shape := ⟨1, ![1]⟩
abbrev S2x4194304 : Shape := ⟨2, ![2, 4194304]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S131072x2 .f32) (main_arg1 : FVec F S2x16 .f32) (main_arg2 : FVec F S16 .f32) (main_arg3 : FVec F S16x1 .f32) (main_arg4 : FVec F S1 .f32) (main_arg5 : IVec S2x4194304 32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S2x16 .f32 := Host.absf main_arg1
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S131072x2 : Shape := ⟨2, ![131072, 2]⟩
abbrev S2x16 : Shape := ⟨2, ![2, 16]⟩
abbrev S16 : Shape := ⟨1, ![16]⟩
abbrev S16x1 : Shape := ⟨2, ![16, 1]⟩
abbrev S1 : Shape := ⟨1, ![1]⟩
abbrev S2x4194304 : Shape := ⟨2, ![2, 4194304]⟩
abbrev S131072 : Shape := ⟨1, ![131072]⟩
abbrev S1x4194304 : Shape := ⟨2, ![1, 4194304]⟩
abbrev S4194304 : Shape := ⟨1, ![4194304]⟩
abbrev S4325376 : Shape := ⟨1, ![4325376]⟩
abbrev S_ : Shape := ⟨0, ![]⟩
abbrev S4325376x1 : Shape := ⟨2, ![4325376, 1]⟩
abbrev S131072x16 : Shape := ⟨2, ![131072, 16]⟩
abbrev S8192x2 : Shape := ⟨2, ![8192, 2]⟩
abbrev S8192x16 : Shape := ⟨2, ![8192, 16]⟩
abbrev S4325376x16 : Shape := ⟨2, ![4325376, 16]⟩
abbrev S4096x16 : Shape := ⟨2, ![4096, 16]⟩
abbrev S4096x1 : Shape := ⟨2, ![4096, 1]⟩
abbrev S1x16 : Shape := ⟨2, ![1, 16]⟩
abbrev S131072x1 : Shape := ⟨2, ![131072, 1]⟩
abbrev S8192x1 : Shape := ⟨2, ![8192, 1]⟩
abbrev S1x1 : Shape := ⟨2, ![1, 1]⟩
abbrev S4194304x1 : Shape := ⟨2, ![4194304, 1]⟩

abbrev nBuf : Space → Nat
  | .hbm => 85
  | .vmem => 36
  | .smem => 0
  | _ => 0

abbrev bufTy : (tb : Table) → Fin (tcTables nBuf tb) → BufTy
  | .hbm, ⟨0, _⟩ => ⟨S131072x2, .f32⟩
  | .hbm, ⟨1, _⟩ => ⟨S2x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x4194304, .i32⟩
  | .hbm, ⟨6, _⟩ => ⟨S131072, .i32⟩
  | .hbm, ⟨7, _⟩ => ⟨S1x4194304, .i32⟩
  | .hbm, ⟨8, _⟩ => ⟨S4194304, .i32⟩
  | .hbm, ⟨9, _⟩ => ⟨S4325376, .i32⟩
  | .hbm, ⟨10, _⟩ => ⟨S1x4194304, .i32⟩
  | .hbm, ⟨11, _⟩ => ⟨S4194304, .i32⟩
  | .hbm, ⟨12, _⟩ => ⟨S4325376, .i32⟩
  | .hbm, ⟨13, _⟩ => ⟨S_, .f32⟩
  | .hbm, ⟨14, _⟩ => ⟨S4325376, .f32⟩
  | .hbm, ⟨15, _⟩ => ⟨S_, .f32⟩
  | .hbm, ⟨16, _⟩ => ⟨S131072, .f32⟩
  | .hbm, ⟨17, _⟩ => ⟨S4325376x1, .i32⟩
  | .hbm, ⟨18, _⟩ => ⟨S131072, .f32⟩
  | .hbm, ⟨19, _⟩ => ⟨S131072, .f32⟩
  | .hbm, ⟨20, _⟩ => ⟨S_, .i32⟩
  | .hbm, ⟨21, _⟩ => ⟨S4325376, .i32⟩
  | .hbm, ⟨22, _⟩ => ⟨S4325376, .i1⟩
  | .hbm, ⟨23, _⟩ => ⟨S_, .i32⟩
  | .hbm, ⟨24, _⟩ => ⟨S4325376, .i32⟩
  | .hbm, ⟨25, _⟩ => ⟨S4325376, .i32⟩
  | .hbm, ⟨26, _⟩ => ⟨S4325376, .i32⟩
  | .hbm, ⟨27, _⟩ => ⟨S4325376x1, .i32⟩
  | .hbm, ⟨28, _⟩ => ⟨S4325376, .f32⟩
  | .hbm, ⟨29, _⟩ => ⟨S4325376x1, .f32⟩
  | .hbm, ⟨30, _⟩ => ⟨S_, .i32⟩
  | .hbm, ⟨31, _⟩ => ⟨S4325376, .i32⟩
  | .hbm, ⟨32, _⟩ => ⟨S4325376, .i1⟩
  | .hbm, ⟨33, _⟩ => ⟨S_, .i32⟩
  | .hbm, ⟨34, _⟩ => ⟨S4325376, .i32⟩
  | .hbm, ⟨35, _⟩ => ⟨S4325376, .i32⟩
  | .hbm, ⟨36, _⟩ => ⟨S4325376, .i32⟩
  | .hbm, ⟨37, _⟩ => ⟨S4325376x1, .i32⟩
  | .hbm, ⟨38, _⟩ => ⟨S4325376, .f32⟩
  | .hbm, ⟨39, _⟩ => ⟨S4325376x1, .f32⟩
  | .hbm, ⟨40, _⟩ => ⟨S131072x16, .f32⟩
  | .hbm, ⟨41, _⟩ => ⟨S_, .i32⟩
  | .hbm, ⟨42, _⟩ => ⟨S4325376, .i32⟩
  | .hbm, ⟨43, _⟩ => ⟨S4325376, .i1⟩
  | .hbm, ⟨44, _⟩ => ⟨S_, .i32⟩
  | .hbm, ⟨45, _⟩ => ⟨S4325376, .i32⟩
  | .hbm, ⟨46, _⟩ => ⟨S4325376, .i32⟩
  | .hbm, ⟨47, _⟩ => ⟨S4325376, .i32⟩
  | .hbm, ⟨48, _⟩ => ⟨S4325376x1, .i32⟩
  | .hbm, ⟨49, _⟩ => ⟨S4325376x16, .f32⟩
  | .hbm, ⟨50, _⟩ => ⟨S4325376x16, .f32⟩
  | .hbm, ⟨51, _⟩ => ⟨S_, .f32⟩
  | .hbm, ⟨52, _⟩ => ⟨S131072x16, .f32⟩
  | .hbm, ⟨53, _⟩ => ⟨S4325376x1, .i32⟩
  | .hbm, ⟨54, _⟩ => ⟨S131072x16, .f32⟩
  | .hbm, ⟨55, _⟩ => ⟨S1x16, .f32⟩
  | .hbm, ⟨56, _⟩ => ⟨S131072x16, .f32⟩
  | .hbm, ⟨57, _⟩ => ⟨S131072x1, .f32⟩
  | .hbm, ⟨58, _⟩ => ⟨S_, .i32⟩
  | .hbm, ⟨59, _⟩ => ⟨S4325376, .i32⟩
  | .hbm, ⟨60, _⟩ => ⟨S4325376, .i1⟩
  | .hbm, ⟨61, _⟩ => ⟨S_, .i32⟩
  | .hbm, ⟨62, _⟩ => ⟨S4325376, .i32⟩
  | .hbm, ⟨63, _⟩ => ⟨S4325376, .i32⟩
  | .hbm, ⟨64, _⟩ => ⟨S4325376, .i32⟩
  | .hbm, ⟨65, _⟩ => ⟨S4325376x1, .i32⟩
  | .hbm, ⟨66, _⟩ => ⟨S4325376x1, .f32⟩
  | .hbm, ⟨67, _⟩ => ⟨S4325376x1, .f32⟩
  | .hbm, ⟨68, _⟩ => ⟨S_, .f32⟩
  | .hbm, ⟨69, _⟩ => ⟨S131072x1, .f32⟩
  | .hbm, ⟨70, _⟩ => ⟨S4325376x1, .i32⟩
  | .hbm, ⟨71, _⟩ => ⟨S131072x1, .f32⟩
  | .hbm, ⟨72, _⟩ => ⟨S1x1, .f32⟩
  | .hbm, ⟨73, _⟩ => ⟨S131072x1, .f32⟩
  | .hbm, ⟨74, _⟩ => ⟨S1x4194304, .i32⟩
  | .hbm, ⟨75, _⟩ => ⟨S4194304, .i32⟩
  | .hbm, ⟨76, _⟩ => ⟨S_, .i32⟩
  | .hbm, ⟨77, _⟩ => ⟨S4194304, .i32⟩
  | .hbm, ⟨78, _⟩ => ⟨S4194304, .i1⟩
  | .hbm, ⟨79, _⟩ => ⟨S_, .i32⟩
  | .hbm, ⟨80, _⟩ => ⟨S4194304, .i32⟩
  | .hbm, ⟨81, _⟩ => ⟨S4194304, .i32⟩
  | .hbm, ⟨82, _⟩ => ⟨S4194304, .i32⟩
  | .hbm, ⟨83, _⟩ => ⟨S4194304x1, .i32⟩
  | .hbm, ⟨84, _⟩ => ⟨S4194304x1, .f32⟩
  | .local _ .vmem, ⟨0, _⟩ => ⟨S8192x2, .f32⟩
  | .local _ .vmem, ⟨1, _⟩ => ⟨S8192x2, .f32⟩
  | .local _ .vmem, ⟨2, _⟩ => ⟨S2x16, .f32⟩
  | .local _ .vmem, ⟨3, _⟩ => ⟨S8192x16, .f32⟩
  | .local _ .vmem, ⟨4, _⟩ => ⟨S8192x16, .f32⟩
  | .local _ .vmem, ⟨5, _⟩ => ⟨S4096x16, .f32⟩
  | .local _ .vmem, ⟨6, _⟩ => ⟨S4096x16, .f32⟩
  | .local _ .vmem, ⟨7, _⟩ => ⟨S4096x1, .f32⟩
  | .local _ .vmem, ⟨8, _⟩ => ⟨S4096x1, .f32⟩
  | .local _ .vmem, ⟨9, _⟩ => ⟨S4096x1, .f32⟩
  | .local _ .vmem, ⟨10, _⟩ => ⟨S4096x1, .f32⟩
  | .local _ .vmem, ⟨11, _⟩ => ⟨S4096x16, .f32⟩
  | .local _ .vmem, ⟨12, _⟩ => ⟨S4096x16, .f32⟩
  | .local _ .vmem, ⟨13, _⟩ => ⟨S8192x16, .f32⟩
  | .local _ .vmem, ⟨14, _⟩ => ⟨S8192x16, .f32⟩
  | .local _ .vmem, ⟨15, _⟩ => ⟨S1x16, .f32⟩
  | .local _ .vmem, ⟨16, _⟩ => ⟨S8192x16, .f32⟩
  | .local _ .vmem, ⟨17, _⟩ => ⟨S8192x16, .f32⟩
  | .local _ .vmem, ⟨18, _⟩ => ⟨S8192x16, .f32⟩
  | .local _ .vmem, ⟨19, _⟩ => ⟨S8192x16, .f32⟩
  | .local _ .vmem, ⟨20, _⟩ => ⟨S16x1, .f32⟩
  | .local _ .vmem, ⟨21, _⟩ => ⟨S8192x1, .f32⟩
  | .local _ .vmem, ⟨22, _⟩ => ⟨S8192x1, .f32⟩
  | .local _ .vmem, ⟨23, _⟩ => ⟨S4096x1, .f32⟩
  | .local _ .vmem, ⟨24, _⟩ => ⟨S4096x1, .f32⟩
  | .local _ .vmem, ⟨25, _⟩ => ⟨S4096x1, .f32⟩
  | .local _ .vmem, ⟨26, _⟩ => ⟨S4096x1, .f32⟩
  | .local _ .vmem, ⟨27, _⟩ => ⟨S4096x1, .f32⟩
  | .local _ .vmem, ⟨28, _⟩ => ⟨S4096x1, .f32⟩
  | .local _ .vmem, ⟨29, _⟩ => ⟨S4096x1, .f32⟩
  | .local _ .vmem, ⟨30, _⟩ => ⟨S4096x1, .f32⟩
  | .local _ .vmem, ⟨31, _⟩ => ⟨S8192x1, .f32⟩
  | .local _ .vmem, ⟨32, _⟩ => ⟨S8192x1, .f32⟩
  | .local _ .vmem, ⟨33, _⟩ => ⟨S1x1, .f32⟩
  | .local _ .vmem, ⟨34, _⟩ => ⟨S8192x1, .f32⟩
  | .local _ .vmem, ⟨35, _⟩ => ⟨S8192x1, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_10 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1056], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1056], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8192x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x4194304_S1x4194304_0_0 : S2x4194304.Slices ![0, 0] S1x4194304
  shapeCasts_S1x4194304_S4194304 : S1x4194304.ShapeCasts S4194304
  concatenates_S4194304_S131072_S4325376_d0 : Shape.Concatenates [S4194304, S131072] S4325376 0
  slices_S2x4194304_S1x4194304_1_0 : S2x4194304.Slices ![1, 0] S1x4194304
  bcast_S_S4325376 : S_.BroadcastsInDim S4325376 (![] : Fin 0 → Fin S4325376.rank)
  bcast_S_S131072 : S_.BroadcastsInDim S131072 (![] : Fin 0 → Fin S131072.rank)
  bcast_S4325376_S4325376x1_0 : S4325376.BroadcastsInDim S4325376x1 (![0] : Fin 1 → Fin S4325376x1.rank)
  shapeCasts_S4325376_S4325376x1 : S4325376.ShapeCasts S4325376x1
  inb_S8192x2_S8192x2_0_0 : ∀ a, (![0, 0] : Fin 2 → Nat) a + S8192x2.size a ≤ S8192x2.size a
  h_S8192x2 : 0 < S8192x2.numel
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S8192x16_S8192x16_0_0 : ∀ a, (![0, 0] : Fin 2 → Nat) a + S8192x16.size a ≤ S8192x16.size a
  h_S8192x16 : 0 < S8192x16.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x16 : S4096x1.Broadcasts S4096x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  bcast_S_S131072x16 : S_.BroadcastsInDim S131072x16 (![] : Fin 0 → Fin S131072x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  shapeCasts_S8192x16_S8192x16 : S8192x16.ShapeCasts S8192x16
  inb_S16x1_S16x1_0_0 : ∀ a, (![0, 0] : Fin 2 → Nat) a + S16x1.size a ≤ S16x1.size a
  h_S16x1 : 0 < S16x1.numel
  inb_S8192x1_S8192x1_0_0 : ∀ a, (![0, 0] : Fin 2 → Nat) a + S8192x1.size a ≤ S8192x1.size a
  h_S8192x1 : 0 < S8192x1.numel
  bcast_S_S131072x1 : S_.BroadcastsInDim S131072x1 (![] : Fin 0 → Fin S131072x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S8192x1 : S8192x1.ShapeCasts S8192x1
  bcast_S_S4194304 : S_.BroadcastsInDim S4194304 (![] : Fin 0 → Fin S4194304.rank)
  bcast_S4194304_S4194304x1_0 : S4194304.BroadcastsInDim S4194304x1 (![0] : Fin 1 → Fin S4194304x1.rank)
  scatter_S131072_S4325376x1_S4325376_n_0_0_1_wf : ScatterDims.WF S131072 S4325376x1 S4325376 [] [0] [0] 1
  gather_S131072_S4325376x1_S4325376_n_0_n_n_0_1_1_wf : GatherDims.WF S131072 S4325376x1 S4325376 [] [0] [] [0] [] 1 ![1]
  dot_S8192x2_S2x16_S8192x16_1_0_0_1_n_n_wf : DotDims.WF S8192x2 S2x16 S8192x16 [1] [0] [0] [1] [] []
  gather_S131072x16_S4325376x1_S4325376x16_1_0_n_n_0_1_116_wf : GatherDims.WF S131072x16 S4325376x1 S4325376x16 [1] [0] [] [0] [] 1 ![1, 16]
  scatter_S131072x16_S4325376x1_S4325376x16_1_0_0_1_wf : ScatterDims.WF S131072x16 S4325376x1 S4325376x16 [1] [0] [0] 1
  dot_S8192x16_S16x1_S8192x1_1_0_0_1_n_n_wf : DotDims.WF S8192x16 S16x1 S8192x1 [1] [0] [0] [1] [] []
  gather_S131072x1_S4325376x1_S4325376x1_1_0_n_n_0_1_11_wf : GatherDims.WF S131072x1 S4325376x1 S4325376x1 [1] [0] [] [0] [] 1 ![1, 1]
  scatter_S131072x1_S4325376x1_S4325376x1_1_0_0_1_wf : ScatterDims.WF S131072x1 S4325376x1 S4325376x1 [1] [0] [0] 1
  gather_S131072x1_S4194304x1_S4194304x1_1_0_n_n_0_1_11_wf : GatherDims.WF S131072x1 S4194304x1 S4194304x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S131072x2.size a
  hwx0_0 : ∀ i : grid0.Coords, EltTy.bits .f32 = 32 ∨ (Rect.block (s := S131072x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S131072x16.size a
  hwx0_2 : ∀ i : grid0.Coords, EltTy.bits .f32 = 32 ∨ (Rect.block (s := S131072x16) S8192x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S4325376x16.size a
  hwx1_0 : ∀ i : grid1.Coords, EltTy.bits .f32 = 32 ∨ (Rect.block (s := S4325376x16) S4096x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S4325376x1.size a
  hwx1_1 : ∀ i : grid1.Coords, EltTy.bits .f32 = 32 ∨ (Rect.block (s := S4325376x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S4325376x1.size a
  hwx1_2 : ∀ i : grid1.Coords, EltTy.bits .f32 = 32 ∨ (Rect.block (s := S4325376x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S4325376x16.size a
  hwx1_3 : ∀ i : grid1.Coords, EltTy.bits .f32 = 32 ∨ (Rect.block (s := S4325376x16) S4096x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x16.size a ≤ S131072x16.size a
  hwx2_0 : ∀ i : grid2.Coords, EltTy.bits .f32 = 32 ∨ (Rect.block (s := S131072x16) S8192x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x16.size a ≤ S131072x16.size a
  hwx2_2 : ∀ i : grid2.Coords, EltTy.bits .f32 = 32 ∨ (Rect.block (s := S131072x16) S8192x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x16.size a ≤ S131072x16.size a
  hwx3_0 : ∀ i : grid3.Coords, EltTy.bits .f32 = 32 ∨ (Rect.block (s := S131072x16) S8192x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x1.size a ≤ S131072x1.size a
  hwx3_2 : ∀ i : grid3.Coords, EltTy.bits .f32 = 32 ∨ (Rect.block (s := S131072x1) S8192x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x1.size a ≤ S4325376x1.size a
  hwx4_0 : ∀ i : grid4.Coords, EltTy.bits .f32 = 32 ∨ (Rect.block (s := S4325376x1) S4096x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S4325376x1.size a
  hwx4_1 : ∀ i : grid4.Coords, EltTy.bits .f32 = 32 ∨ (Rect.block (s := S4325376x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x1.size a ≤ S4325376x1.size a
  hwx4_2 : ∀ i : grid4.Coords, EltTy.bits .f32 = 32 ∨ (Rect.block (s := S4325376x1) S4096x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x1.size a ≤ S4325376x1.size a
  hwx4_3 : ∀ i : grid4.Coords, EltTy.bits .f32 = 32 ∨ (Rect.block (s := S4325376x1) S4096x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x1.size a ≤ S131072x1.size a
  hwx5_0 : ∀ i : grid5.Coords, EltTy.bits .f32 = 32 ∨ (Rect.block (s := S131072x1) S8192x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x1.size a ≤ S131072x1.size a
  hwx5_2 : ∀ i : grid5.Coords, EltTy.bits .f32 = 32 ∨ (Rect.block (s := S131072x1) S8192x1.size (cc5_transform_2 i) (hinb5_2 i)).WholeWords (EltTy.packing .f32)

variable [Facts₀]

def scatter_S131072_S4325376x1_S4325376_n_0_0_1 : ScatterDims S131072 S4325376x1 S4325376 where
  updateWindowDims := []
  insertedWindowDims := [0]
  scatterDimsToOperandDims := [0]
  indexVectorDim := 1
  wf := scatter_S131072_S4325376x1_S4325376_n_0_0_1_wf
def gather_S131072_S4325376x1_S4325376_n_0_n_n_0_1_1 : GatherDims S131072 S4325376x1 S4325376 where
  offsetDims := []
  collapsedSliceDims := [0]
  operandBatchingDims := []
  startIndicesBatchingDims := []
  startIndexMap := [0]
  indexVectorDim := 1
  sliceSizes := ![1]
  wf := gather_S131072_S4325376x1_S4325376_n_0_n_n_0_1_1_wf
def dot_S8192x2_S2x16_S8192x16_1_0_0_1_n_n : DotDims S8192x2 S2x16 S8192x16 where
  lhsContracting := [1]
  rhsContracting := [0]
  lhsNonContracting := [0]
  rhsNonContracting := [1]
  lhsBatch := []
  rhsBatch := []
  wf := dot_S8192x2_S2x16_S8192x16_1_0_0_1_n_n_wf
def gather_S131072x16_S4325376x1_S4325376x16_1_0_n_n_0_1_116 : GatherDims S131072x16 S4325376x1 S4325376x16 where
  offsetDims := [1]
  collapsedSliceDims := [0]
  operandBatchingDims := []
  startIndicesBatchingDims := []
  startIndexMap := [0]
  indexVectorDim := 1
  sliceSizes := ![1, 16]
  wf := gather_S131072x16_S4325376x1_S4325376x16_1_0_n_n_0_1_116_wf
def scatter_S131072x16_S4325376x1_S4325376x16_1_0_0_1 : ScatterDims S131072x16 S4325376x1 S4325376x16 where
  updateWindowDims := [1]
  insertedWindowDims := [0]
  scatterDimsToOperandDims := [0]
  indexVectorDim := 1
  wf := scatter_S131072x16_S4325376x1_S4325376x16_1_0_0_1_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf
def gather_S131072x1_S4325376x1_S4325376x1_1_0_n_n_0_1_11 : GatherDims S131072x1 S4325376x1 S4325376x1 where
  offsetDims := [1]
  collapsedSliceDims := [0]
  operandBatchingDims := []
  startIndicesBatchingDims := []
  startIndexMap := [0]
  indexVectorDim := 1
  sliceSizes := ![1, 1]
  wf := gather_S131072x1_S4325376x1_S4325376x1_1_0_n_n_0_1_11_wf
def scatter_S131072x1_S4325376x1_S4325376x1_1_0_0_1 : ScatterDims S131072x1 S4325376x1 S4325376x1 where
  updateWindowDims := [1]
  insertedWindowDims := [0]
  scatterDimsToOperandDims := [0]
  indexVectorDim := 1
  wf := scatter_S131072x1_S4325376x1_S4325376x1_1_0_0_1_wf
def gather_S131072x1_S4194304x1_S4194304x1_1_0_n_n_0_1_11 : GatherDims S131072x1 S4194304x1 S4194304x1 where
  offsetDims := [1]
  collapsedSliceDims := [0]
  operandBatchingDims := []
  startIndicesBatchingDims := []
  startIndexMap := [0]
  indexVectorDim := 1
  sliceSizes := ![1, 1]
  wf := gather_S131072x1_S4194304x1_S4194304x1_1_0_n_n_0_1_11_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S8192x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S4096x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S8192x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S8192x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S8192x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S8192x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v49) S4096x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S4096x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v50) S4096x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v53) S8192x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S8192x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S131072x2 : Shape := ⟨2, ![131072, 2]⟩
abbrev S2x16 : Shape := ⟨2, ![2, 16]⟩
abbrev S16 : Shape := ⟨1, ![16]⟩
abbrev S16x1 : Shape := ⟨2, ![16, 1]⟩
abbrev S1 : Shape := ⟨1, ![1]⟩
abbrev S2x4194304 : Shape := ⟨2, ![2, 4194304]⟩
abbrev S131072 : Shape := ⟨1, ![131072]⟩
abbrev S1x4194304 : Shape := ⟨2, ![1, 4194304]⟩
abbrev S4194304 : Shape := ⟨1, ![4194304]⟩
abbrev S4325376 : Shape := ⟨1, ![4325376]⟩
abbrev S131072x16 : Shape := ⟨2, ![131072, 16]⟩
abbrev S_ : Shape := ⟨0, ![]⟩
abbrev S4325376x1 : Shape := ⟨2, ![4325376, 1]⟩
abbrev S4325376x16 : Shape := ⟨2, ![4325376, 16]⟩
abbrev S1x16 : Shape := ⟨2, ![1, 16]⟩
abbrev S131072x1 : Shape := ⟨2, ![131072, 1]⟩
abbrev S1x1 : Shape := ⟨2, ![1, 1]⟩
abbrev S4194304x1 : Shape := ⟨2, ![4194304, 1]⟩

abbrev nBuf : Space → Nat
  | .hbm => 126
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S2x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S2x4194304, .i32⟩
  | .hbm, ⟨6, _⟩ => ⟨S131072, .i32⟩
  | .hbm, ⟨7, _⟩ => ⟨S1x4194304, .i32⟩
  | .hbm, ⟨8, _⟩ => ⟨S4194304, .i32⟩
  | .hbm, ⟨9, _⟩ => ⟨S4325376, .i32⟩
  | .hbm, ⟨10, _⟩ => ⟨S1x4194304, .i32⟩
  | .hbm, ⟨11, _⟩ => ⟨S4194304, .i32⟩
  | .hbm, ⟨12, _⟩ => ⟨S4325376, .i32⟩
  | .hbm, ⟨13, _⟩ => ⟨S131072x16, .f32⟩
  | .hbm, ⟨14, _⟩ => ⟨S_, .f32⟩
  | .hbm, ⟨15, _⟩ => ⟨S4325376, .f32⟩
  | .hbm, ⟨16, _⟩ => ⟨S_, .f32⟩
  | .hbm, ⟨17, _⟩ => ⟨S131072, .f32⟩
  | .hbm, ⟨18, _⟩ => ⟨S4325376x1, .i32⟩
  | .hbm, ⟨19, _⟩ => ⟨S131072, .f32⟩
  | .hbm, ⟨20, _⟩ => ⟨S131072, .f32⟩
  | .hbm, ⟨21, _⟩ => ⟨S_, .i32⟩
  | .hbm, ⟨22, _⟩ => ⟨S4325376, .i32⟩
  | .hbm, ⟨23, _⟩ => ⟨S4325376, .i1⟩
  | .hbm, ⟨24, _⟩ => ⟨S_, .i32⟩
  | .hbm, ⟨25, _⟩ => ⟨S4325376, .i32⟩
  | .hbm, ⟨26, _⟩ => ⟨S4325376, .i32⟩
  | .hbm, ⟨27, _⟩ => ⟨S4325376, .i32⟩
  | .hbm, ⟨28, _⟩ => ⟨S4325376x1, .i32⟩
  | .hbm, ⟨29, _⟩ => ⟨S4325376, .f32⟩
  | .hbm, ⟨30, _⟩ => ⟨S_, .i32⟩
  | .hbm, ⟨31, _⟩ => ⟨S4325376, .i32⟩
  | .hbm, ⟨32, _⟩ => ⟨S4325376, .i1⟩
  | .hbm, ⟨33, _⟩ => ⟨S_, .i32⟩
  | .hbm, ⟨34, _⟩ => ⟨S4325376, .i32⟩
  | .hbm, ⟨35, _⟩ => ⟨S4325376, .i32⟩
  | .hbm, ⟨36, _⟩ => ⟨S4325376, .i32⟩
  | .hbm, ⟨37, _⟩ => ⟨S4325376x1, .i32⟩
  | .hbm, ⟨38, _⟩ => ⟨S4325376, .f32⟩
  | .hbm, ⟨39, _⟩ => ⟨S4325376, .f32⟩
  | .hbm, ⟨40, _⟩ => ⟨S_, .i32⟩
  | .hbm, ⟨41, _⟩ => ⟨S4325376, .i32⟩
  | .hbm, ⟨42, _⟩ => ⟨S4325376, .i1⟩
  | .hbm, ⟨43, _⟩ => ⟨S_, .i32⟩
  | .hbm, ⟨44, _⟩ => ⟨S4325376, .i32⟩
  | .hbm, ⟨45, _⟩ => ⟨S4325376, .i32⟩
  | .hbm, ⟨46, _⟩ => ⟨S4325376, .i32⟩
  | .hbm, ⟨47, _⟩ => ⟨S4325376x1, .i32⟩
  | .hbm, ⟨48, _⟩ => ⟨S4325376x16, .f32⟩
  | .hbm, ⟨49, _⟩ => ⟨S4325376x1, .f32⟩
  | .hbm, ⟨50, _⟩ => ⟨S4325376x16, .f32⟩
  | .hbm, ⟨51, _⟩ => ⟨S4325376x16, .f32⟩
  | .hbm, ⟨52, _⟩ => ⟨S_, .f32⟩
  | .hbm, ⟨53, _⟩ => ⟨S131072x16, .f32⟩
  | .hbm, ⟨54, _⟩ => ⟨S4325376x1, .i32⟩
  | .hbm, ⟨55, _⟩ => ⟨S131072x16, .f32⟩
  | .hbm, ⟨56, _⟩ => ⟨S1x16, .f32⟩
  | .hbm, ⟨57, _⟩ => ⟨S131072x16, .f32⟩
  | .hbm, ⟨58, _⟩ => ⟨S131072x16, .f32⟩
  | .hbm, ⟨59, _⟩ => ⟨S_, .f32⟩
  | .hbm, ⟨60, _⟩ => ⟨S131072x16, .f32⟩
  | .hbm, ⟨61, _⟩ => ⟨S131072x16, .f32⟩
  | .hbm, ⟨62, _⟩ => ⟨S131072x1, .f32⟩
  | .hbm, ⟨63, _⟩ => ⟨S_, .f32⟩
  | .hbm, ⟨64, _⟩ => ⟨S4325376, .f32⟩
  | .hbm, ⟨65, _⟩ => ⟨S_, .f32⟩
  | .hbm, ⟨66, _⟩ => ⟨S131072, .f32⟩
  | .hbm, ⟨67, _⟩ => ⟨S4325376x1, .i32⟩
  | .hbm, ⟨68, _⟩ => ⟨S131072, .f32⟩
  | .hbm, ⟨69, _⟩ => ⟨S131072, .f32⟩
  | .hbm, ⟨70, _⟩ => ⟨S_, .i32⟩
  | .hbm, ⟨71, _⟩ => ⟨S4325376, .i32⟩
  | .hbm, ⟨72, _⟩ => ⟨S4325376, .i1⟩
  | .hbm, ⟨73, _⟩ => ⟨S_, .i32⟩
  | .hbm, ⟨74, _⟩ => ⟨S4325376, .i32⟩
  | .hbm, ⟨75, _⟩ => ⟨S4325376, .i32⟩
  | .hbm, ⟨76, _⟩ => ⟨S4325376, .i32⟩
  | .hbm, ⟨77, _⟩ => ⟨S4325376x1, .i32⟩
  | .hbm, ⟨78, _⟩ => ⟨S4325376, .f32⟩
  | .hbm, ⟨79, _⟩ => ⟨S_, .i32⟩
  | .hbm, ⟨80, _⟩ => ⟨S4325376, .i32⟩
  | .hbm, ⟨81, _⟩ => ⟨S4325376, .i1⟩
  | .hbm, ⟨82, _⟩ => ⟨S_, .i32⟩
  | .hbm, ⟨83, _⟩ => ⟨S4325376, .i32⟩
  | .hbm, ⟨84, _⟩ => ⟨S4325376, .i32⟩
  | .hbm, ⟨85, _⟩ => ⟨S4325376, .i32⟩
  | .hbm, ⟨86, _⟩ => ⟨S4325376x1, .i32⟩
  | .hbm, ⟨87, _⟩ => ⟨S4325376, .f32⟩
  | .hbm, ⟨88, _⟩ => ⟨S4325376, .f32⟩
  | .hbm, ⟨89, _⟩ => ⟨S_, .i32⟩
  | .hbm, ⟨90, _⟩ => ⟨S4325376, .i32⟩
  | .hbm, ⟨91, _⟩ => ⟨S4325376, .i1⟩
  | .hbm, ⟨92, _⟩ => ⟨S_, .i32⟩
  | .hbm, ⟨93, _⟩ => ⟨S4325376, .i32⟩
  | .hbm, ⟨94, _⟩ => ⟨S4325376, .i32⟩
  | .hbm, ⟨95, _⟩ => ⟨S4325376, .i32⟩
  | .hbm, ⟨96, _⟩ => ⟨S4325376x1, .i32⟩
  | .hbm, ⟨97, _⟩ => ⟨S4325376x1, .f32⟩
  | .hbm, ⟨98, _⟩ => ⟨S4325376x1, .f32⟩
  | .hbm, ⟨99, _⟩ => ⟨S4325376x1, .f32⟩
  | .hbm, ⟨100, _⟩ => ⟨S_, .f32⟩
  | .hbm, ⟨101, _⟩ => ⟨S131072x1, .f32⟩
  | .hbm, ⟨102, _⟩ => ⟨S4325376x1, .i32⟩
  | .hbm, ⟨103, _⟩ => ⟨S131072x1, .f32⟩
  | .hbm, ⟨104, _⟩ => ⟨S1x1, .f32⟩
  | .hbm, ⟨105, _⟩ => ⟨S131072x1, .f32⟩
  | .hbm, ⟨106, _⟩ => ⟨S131072x1, .f32⟩
  | .hbm, ⟨107, _⟩ => ⟨S131072x1, .f32⟩
  | .hbm, ⟨108, _⟩ => ⟨S131072x1, .f32⟩
  | .hbm, ⟨109, _⟩ => ⟨S_, .f32⟩
  | .hbm, ⟨110, _⟩ => ⟨S131072x1, .f32⟩
  | .hbm, ⟨111, _⟩ => ⟨S131072x1, .f32⟩
  | .hbm, ⟨112, _⟩ => ⟨S_, .f32⟩
  | .hbm, ⟨113, _⟩ => ⟨S131072x1, .f32⟩
  | .hbm, ⟨114, _⟩ => ⟨S131072x1, .f32⟩
  | .hbm, ⟨115, _⟩ => ⟨S1x4194304, .i32⟩
  | .hbm, ⟨116, _⟩ => ⟨S4194304, .i32⟩
  | .hbm, ⟨117, _⟩ => ⟨S_, .i32⟩
  | .hbm, ⟨118, _⟩ => ⟨S4194304, .i32⟩
  | .hbm, ⟨119, _⟩ => ⟨S4194304, .i1⟩
  | .hbm, ⟨120, _⟩ => ⟨S_, .i32⟩
  | .hbm, ⟨121, _⟩ => ⟨S4194304, .i32⟩
  | .hbm, ⟨122, _⟩ => ⟨S4194304, .i32⟩
  | .hbm, ⟨123, _⟩ => ⟨S4194304, .i32⟩
  | .hbm, ⟨124, _⟩ => ⟨S4194304x1, .i32⟩
  | .hbm, ⟨125, _⟩ => ⟨S4194304x1, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_16 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_18 : Ref sig .tc := ⟨.hbm, 117, rfl⟩
abbrev main_v89 : Ref sig .tc := ⟨.hbm, 118, rfl⟩
abbrev main_v90 : Ref sig .tc := ⟨.hbm, 119, rfl⟩
abbrev main_c_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  concatenates_S4194304_S131072_S4325376_d0 : Shape.Concatenates [S4194304, S131072] S4325376 0
  slices_S2x4194304_S1x4194304_1_0 : S2x4194304.Slices ![1, 0] S1x4194304
  bcast_S_S4325376 : S_.BroadcastsInDim S4325376 (![] : Fin 0 → Fin S4325376.rank)
  bcast_S_S131072 : S_.BroadcastsInDim S131072 (![] : Fin 0 → Fin S131072.rank)
  bcast_S4325376_S4325376x1_0 : S4325376.BroadcastsInDim S4325376x1 (![0] : Fin 1 → Fin S4325376x1.rank)
  bcast_S4325376x1_S4325376x16_0_1 : S4325376x1.BroadcastsInDim S4325376x16 (![0, 1] : Fin 2 → Fin S4325376x16.rank)
  bcast_S_S131072x16 : S_.BroadcastsInDim S131072x16 (![] : Fin 0 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  dot_S131072x2_S2x16_S131072x16_1_0_0_1_n_n_wf : DotDims.WF S131072x2 S2x16 S131072x16 [1] [0] [0] [1] [] []
  scatter_S131072_S4325376x1_S4325376_n_0_0_1_wf : ScatterDims.WF S131072 S4325376x1 S4325376 [] [0] [0] 1
  gather_S131072_S4325376x1_S4325376_n_0_n_n_0_1_1_wf : GatherDims.WF S131072 S4325376x1 S4325376 [] [0] [] [0] [] 1 ![1]
  gather_S131072x16_S4325376x1_S4325376x16_1_0_n_n_0_1_116_wf : GatherDims.WF S131072x16 S4325376x1 S4325376x16 [1] [0] [] [0] [] 1 ![1, 16]
  scatter_S131072x16_S4325376x1_S4325376x16_1_0_0_1_wf : ScatterDims.WF S131072x16 S4325376x1 S4325376x16 [1] [0] [0] 1
  dot_S131072x16_S16x1_S131072x1_1_0_0_1_n_n_wf : DotDims.WF S131072x16 S16x1 S131072x1 [1] [0] [0] [1] [] []
  gather_S131072x1_S4325376x1_S4325376x1_1_0_n_n_0_1_11_wf : GatherDims.WF S131072x1 S4325376x1 S4325376x1 [1] [0] [] [0] [] 1 ![1, 1]
  scatter_S131072x1_S4325376x1_S4325376x1_1_0_0_1_wf : ScatterDims.WF S131072x1 S4325376x1 S4325376x1 [1] [0] [0] 1
  gather_S131072x1_S4194304x1_S4194304x1_1_0_n_n_0_1_11_wf : GatherDims.WF S131072x1 S4194304x1 S4194304x1 [1] [0] [] [0] [] 1 ![1, 1]

variable [Facts₀]

def dot_S131072x2_S2x16_S131072x16_1_0_0_1_n_n : DotDims S131072x2 S2x16 S131072x16 where
  lhsContracting := [1]
  rhsContracting := [0]
  lhsNonContracting := [0]
  rhsNonContracting := [1]
  lhsBatch := []
  rhsBatch := []
  wf := dot_S131072x2_S2x16_S131072x16_1_0_0_1_n_n_wf
def scatter_S131072_S4325376x1_S4325376_n_0_0_1 : ScatterDims S131072 S4325376x1 S4325376 where
  updateWindowDims := []
  insertedWindowDims := [0]
  scatterDimsToOperandDims := [0]
  indexVectorDim := 1
  wf := scatter_S131072_S4325376x1_S4325376_n_0_0_1_wf
def gather_S131072_S4325376x1_S4325376_n_0_n_n_0_1_1 : GatherDims S131072 S4325376x1 S4325376 where
  offsetDims := []
  collapsedSliceDims := [0]
  operandBatchingDims := []
  startIndicesBatchingDims := []
  startIndexMap := [0]
  indexVectorDim := 1
  sliceSizes := ![1]
  wf := gather_S131072_S4325376x1_S4325376_n_0_n_n_0_1_1_wf
def gather_S131072x16_S4325376x1_S4325376x16_1_0_n_n_0_1_116 : GatherDims S131072x16 S4325376x1 S4325376x16 where
  offsetDims := [1]
  collapsedSliceDims := [0]
  operandBatchingDims := []
  startIndicesBatchingDims := []
  startIndexMap := [0]
  indexVectorDim := 1
  sliceSizes := ![1, 16]
  wf := gather_S131072x16_S4325376x1_S4325376x16_1_0_n_n_0_1_116_wf
def scatter_S131072x16_S4325376x1_S4325376x16_1_0_0_1 : ScatterDims S131072x16 S4325376x1 S4325376x16 where
  updateWindowDims := [1]
  insertedWindowDims := [0]
  scatterDimsToOperandDims := [0]
  indexVectorDim := 1
  wf := scatter_S131072x16_S4325376x1_S4325376x16_1_0_0_1_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf
def gather_S131072x1_S4325376x1_S4325376x1_1_0_n_n_0_1_11 : GatherDims S131072x1 S4325376x1 S4325376x1 where
  offsetDims := [1]
  collapsedSliceDims := [0]
  operandBatchingDims := []
  startIndicesBatchingDims := []
  startIndexMap := [0]
  indexVectorDim := 1
  sliceSizes := ![1, 1]
  wf := gather_S131072x1_S4325376x1_S4325376x1_1_0_n_n_0_1_11_wf
def scatter_S131072x1_S4325376x1_S4325376x1_1_0_0_1 : ScatterDims S131072x1 S4325376x1 S4325376x1 where
  updateWindowDims := [1]
  insertedWindowDims := [0]
  scatterDimsToOperandDims := [0]
  indexVectorDim := 1
  wf := scatter_S131072x1_S4325376x1_S4325376x1_1_0_0_1_wf
def gather_S131072x1_S4194304x1_S4194304x1_1_0_n_n_0_1_11 : GatherDims S131072x1 S4194304x1 S4194304x1 where
  offsetDims := [1]
  collapsedSliceDims := [0]
  operandBatchingDims := []
  startIndicesBatchingDims := []
  startIndexMap := [0]
  indexVectorDim := 1
  sliceSizes := ![1, 1]
  wf := gather_S131072x1_S4194304x1_S4194304x1_1_0_n_n_0_1_11_wf

class Facts : Prop extends Facts₀ where

variable [Facts]
-- ==== Proof.KernelRun.lean ====
/-
  The idealized kernel's run with its result named.

  The program is twelve segments: seven stretches of host operations and six pipelined regions. Every weakly fair
  execution from a memory with zero counters terminates without a fault, and the final memory holds, at every buffer
  that lives for the whole program, the contents `W12` obtained by folding the segments over the launch memory: a host
  stretch applies its operations in order, a region replaces its output array by what its write-backs leave. Read at
  the six argument buffers the fold gives back the launch contents; read at the result buffer it gives the value this
  file names, for the value proof to open.
-/
import proofs.«147779_j53317724013383_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates with the result buffer at the fold's contents there and the
    six argument arrays as launched. -/
theorem run_result : θ_run defs (onTc (τ := τ) (main (F := F))) ⟨m, fun _ => 0, ρ⟩ (fun r => ∀ c : Dev nD,
      r.2.mem ((c.tc : Thread nD τ).loc main_v64) = W12 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v64 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.Run

end
-- ==== Proof.LibAffine.lean ====
import Idealize.ShloMosaic.Lib.ValueIdx
import Idealize.ShloMosaic.Lib.Pipeline.Value
import Idealize.ShloMosaic.Lib.KernelVsHost
import Idealize.ShloMosaic.PureOps.Ideal.Laws

/-!
# An affine layer and a biased rectifier, row by row, at the exact extended reals

For a matrix `X` of `m` rows and `k` columns, a matrix `W` of `k` rows and `n` columns and a one-row matrix `Y`
of `n` entries, the affine layer is `(r, j) ↦ (∑ c, X (r, c) · W (c, j)) + Y (0, j)`; the biased rectifier is
`(r, j) ↦ max (X (r, j) + Y (0, j)) 0`.  Both are stated here as functions of whole arrays, together with their
spellings by the host's operations (a contraction, a broadcast of the row along both axes, a sum, a maximum with the
zero array), and with the fact that adding the zero row changes nothing: `x + 0 = x` for every extended real, the
infinities included.
-/

noncomputable section

namespace Cert.LibAffine

open Idealize.ShloMosaic Idealize.ShloMosaic.ValueIdx

variable {m k n : ℕ}

/-- The host's contraction of the second axis of `A` with the first of `B`, read at `(a, b)`: the sum over the
    contracted coordinate of the products of the entries. -/
theorem hostDot_plain_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The affine layer: row `r` of `X` against column `j` of `W`, plus entry `j` of the row `Y`. -/
def affine (X : (⟨2, ![m, k]⟩ : Shape).Idx → EReal) (W : (⟨2, ![k, n]⟩ : Shape).Idx → EReal)
    (Y : (⟨2, ![1, n]⟩ : Shape).Idx → EReal) : (⟨2, ![m, n]⟩ : Shape).Idx → EReal :=
  fun i => (∑ c : Fin k, X (ix2 (i 0) c) * W (ix2 c (i 1))) + Y (ix2 (0 : Fin 1) (i 1))

theorem affine_apply (X : (⟨2, ![m, k]⟩ : Shape).Idx → EReal) (W : (⟨2, ![k, n]⟩ : Shape).Idx → EReal)
    (Y : (⟨2, ![1, n]⟩ : Shape).Idx → EReal) (p : Fin m) (q : Fin n) :
    affine X W Y (ix2 p q) = (∑ c : Fin k, X (ix2 p c) * W (ix2 c q)) + Y (ix2 (0 : Fin 1) q) := rfl

/-- The biased rectifier: entry `(r, j)` of `X` plus entry `j` of the row `Y`, or zero if that is larger. -/
def biasRelu (X : (⟨2, ![m, n]⟩ : Shape).Idx → EReal) (Y : (⟨2, ![1, n]⟩ : Shape).Idx → EReal) :
    (⟨2, ![m, n]⟩ : Shape).Idx → EReal :=
  fun i => max (X i + Y (ix2 (0 : Fin 1) (i 1))) 0

theorem biasRelu_apply (X : (⟨2, ![m, n]⟩ : Shape).Idx → EReal) (Y : (⟨2, ![1, n]⟩ : Shape).Idx → EReal)
    (p : Fin m) (q : Fin n) : biasRelu X Y (ix2 p q) = max (X (ix2 p q) + Y (ix2 (0 : Fin 1) q)) 0 := rfl

/-- The affine layer in the host's spelling: the contraction, plus the row laid down every row. -/
theorem affine_eq_host
    (w : DotDims.WF ⟨2, ![m, k]⟩ ⟨2, ![k, n]⟩ ⟨2, ![m, n]⟩ [1] [0] [0] [1] [] [])
    (prec : Option ContractPrecision)
    (hd : (⟨2, ![1, n]⟩ : Shape).BroadcastsInDim ⟨2, ![m, n]⟩ ![0, 1])
    (X : FVec Ideal ⟨2, ![m, k]⟩ .f32) (W : FVec Ideal ⟨2, ![k, n]⟩ .f32) (Y : FVec Ideal ⟨2, ![1, n]⟩ .f32) :
    affine X W Y
      = addf (Host.dotGeneral (⟨[1], [0], [0], [1], [], [], w⟩ : DotDims _ _ _) prec X W)
          (broadcastInDim ⟨2, ![m, n]⟩ ![0, 1] hd Y) := by
  funext i
  obtain ⟨p, q, rfl⟩ : ∃ (p : Fin m) (q : Fin n), i = ix2 p q := ⟨i 0, i 1, eq_ix2 i⟩
  show _ = FloatOps.addf (Host.dotGeneral _ prec X W (ix2 p q)) (broadcastInDim _ ![0, 1] hd Y (ix2 p q))
  rw [hostDot_plain_apply, broadcastInDim_oneRow_apply]
  rfl

/-- The zero row adds nothing: the affine layer with the zero row is the contraction alone. -/
theorem affine_zero_eq_host
    (w : DotDims.WF ⟨2, ![m, k]⟩ ⟨2, ![k, n]⟩ ⟨2, ![m, n]⟩ [1] [0] [0] [1] [] [])
    (prec : Option ContractPrecision)
    (X : FVec Ideal ⟨2, ![m, k]⟩ .f32) (W : FVec Ideal ⟨2, ![k, n]⟩ .f32) (Y : FVec Ideal ⟨2, ![1, n]⟩ .f32)
    (hY : ∀ j, Y j = 0) :
    affine X W Y = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [hostDot_plain_apply, affine_apply, hY, add_zero]

/-- The biased rectifier in the host's spelling: the sum with the row laid down every row, then the maximum with the
    zero array. -/
theorem biasRelu_eq_host
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (Y : FVec Ideal ⟨2, ![1, n]⟩ .f32) :
    biasRelu X Y
      = maximumf (addf X (broadcastInDim ⟨2, ![m, n]⟩ ![0, 1] hd Y))
          (broadcastInDim ⟨2, ![m, n]⟩ ![] hz (constant ⟨0, ![]⟩ .f32 0x00000000#32)) := by
  funext i
  obtain ⟨p, q, rfl⟩ : ∃ (p : Fin m) (q : Fin n), i = ix2 p q := ⟨i 0, i 1, eq_ix2 i⟩
  show _ = FloatOps.maximumf (FloatOps.addf (X (ix2 p q)) (broadcastInDim _ ![0, 1] hd Y (ix2 p q)))
    (broadcastInDim _ ![] hz (constant ⟨0, ![]⟩ .f32 0x00000000#32) (ix2 p q))
  rw [broadcastInDim_oneRow_apply, broadcastInDim_apply ![] hz _ (ix2 p q) ix0 (fun a => a.elim0)]
  show _ = max (X (ix2 p q) + Y (ix2 (0 : Fin 1) q)) (Ideal.ofBits .f32 0x00000000#32)
  rw [Ideal.ofBits_zero_f32]
  rfl

end Cert.LibAffine

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«147779_j53317724013383_2_alg».proof.Proof.LibDotIdx
import proofs.«147779_j53317724013383_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibHostIdx.lean ====
/-
  Host operations read one entry at a time at the exact extended reals, for ANY shape: a square root and a quotient
  entry by entry, a scalar constant laid over a shape as the extended real its word encodes, and a vector reshaped to
  one row as the same row the vector's broadcast along axis 1 gives. Stated over a variable shape, they rewrite a
  reading at an index of an array of any extent without unfolding the layout operation there (at extents beyond the
  elaborator's recursion depth, 100000 rows say, unfolding by `show` fails where these rewrite).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibHostIdx

open Idealize.ShloMosaic Idealize.ShloMosaic.ValueIdx

/-- A square root on the host, an entry at a time. -/
theorem hostSqrt_apply {s : Shape} {φ : FTy} (x : FVec Ideal s φ) (i : s.Idx) : Host.sqrt x i = Ideal.sqrt (x i) := rfl

/-- A quotient on the host, an entry at a time. -/
theorem hostDivf_apply {s : Shape} {φ : FTy} (a b : FVec Ideal s φ) (i : s.Idx) :
    Host.divf a b i = Ideal.div (a i) (b i) := rfl

/-- A scalar constant laid over any shape reads, at every index, the extended real its word encodes. -/
theorem splat_apply {t : Shape} {φ : FTy} (h : (⟨0, ![]⟩ : Shape).BroadcastsInDim t ![]) (w : BitVec φ.bits) (i : t.Idx) :
    broadcastInDim t ![] h (constant (F := Ideal) ⟨0, ![]⟩ φ w) i = Ideal.ofBits φ w := rfl

/-- A vector reshaped to one row is the vector broadcast along axis 1 to one row. -/
theorem oneRow_eq {α : Type} {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, q, rfl⟩ : ∃ (u : Fin 1) (q : Fin n), i = ix2 u q := ⟨i 0, i 1, eq_ix2 i⟩
  obtain rfl : u = 0 := Subsingleton.elim _ _
  rw [shapeCast_a_1a_apply]
  exact (broadcastInDim_apply ![1] hd x (ix2 (0 : Fin 1) q) (ix1 q) (by
    intro a
    match a with
    | ⟨0, _⟩ =>
      show q.val = if n = 1 then 0 else q.val
      split
      · have e : q.val < n := q.isLt; omega
      · rfl)).symm

end Cert.LibHostIdx

end
-- ==== Proof.LibGraphLayers.lean ====
/-
  The four layer operations of a two-layer graph convolution, as functions of whole arrays over the exact
  extended reals, generic in the extents:

    dense X W         (r, j) ↦ ∑ c, X (r, c) · W (c, j)               a matrix product
    edgeScale H S D   (e, j) ↦ H (e, j) · (S (e, 0) · D (e, 0))       a row of gathered features times the edge's
                                                                     weight, the product of two per-edge columns
    biasRelu X Y      (r, j) ↦ max (X (r, j) + Y (0, j)) 0            (from LibAffine)
    biasLogistic X Y  (r, j) ↦ 1 / (1 + exp (−(X (r, j) + Y (0, j))))

  Each is proved equal to the way a host program spells it (a contraction; two per-edge vectors multiplied, laid out
  as a column and along the columns; a row laid down every row, a sum, and a maximum with the zero array or the
  quotient 1 / (1 + exp (−·))).  No law of arithmetic is used beyond unfolding: the two sides multiply and add in the
  same order, so nothing here needs the entries to be finite.
-/
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws
import proofs.«147779_j53317724013383_2_alg».proof.Proof.LibAffine
import proofs.«147779_j53317724013383_2_alg».proof.Proof.LibRows
import proofs.«147779_j53317724013383_2_alg».proof.Proof.LibRowOps
import proofs.«147779_j53317724013383_2_alg».proof.Proof.LibHostIdx

noncomputable section

namespace Cert.GcnLayers

open Idealize.ShloMosaic Idealize.ShloMosaic.ValueIdx

variable {m k n : ℕ}

/-! ## The matrix product -/

/-- Row `r` of `X` against column `j` of `W`. -/
def dense (X : (⟨2, ![m, k]⟩ : Shape).Idx → EReal) (W : (⟨2, ![k, n]⟩ : Shape).Idx → EReal) :
    (⟨2, ![m, n]⟩ : Shape).Idx → EReal :=
  fun i => ∑ c : Fin k, X (ix2 (i 0) c) * W (ix2 c (i 1))

theorem dense_apply (X : (⟨2, ![m, k]⟩ : Shape).Idx → EReal) (W : (⟨2, ![k, n]⟩ : Shape).Idx → EReal)
    (p : Fin m) (q : Fin n) : dense X W (ix2 p q) = ∑ c : Fin k, X (ix2 p c) * W (ix2 c q) := rfl

/-- The host's contraction of the second axis of `X` with the first of `W` is the matrix product. -/
theorem hostDot_eq_dense
    (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims _ _ _) prec X W = dense X W := by
  funext i
  obtain ⟨p, q, rfl⟩ : ∃ (p : Fin m) (q : Fin n), i = ix2 p q := ⟨i 0, i 1, eq_ix2 i⟩
  exact Cert.LibAffine.hostDot_plain_apply w prec X W p q

/-! ## A row of features times an edge's weight -/

/-- Entry `(e, j)` of `H` times the product of the two per-edge columns at `e`. -/
def edgeScale (H : (⟨2, ![m, n]⟩ : Shape).Idx → EReal) (S D : (⟨2, ![m, 1]⟩ : Shape).Idx → EReal) :
    (⟨2, ![m, n]⟩ : Shape).Idx → EReal :=
  fun i => H i * (S (ix2 (i 0) (0 : Fin 1)) * D (ix2 (i 0) (0 : Fin 1)))

theorem edgeScale_apply (H : (⟨2, ![m, n]⟩ : Shape).Idx → EReal) (S D : (⟨2, ![m, 1]⟩ : Shape).Idx → EReal)
    (p : Fin m) (q : Fin n) :
    edgeScale H S D (ix2 p q) = H (ix2 p q) * (S (ix2 p (0 : Fin 1)) * D (ix2 p (0 : Fin 1))) := rfl

/-- The host's spelling when the features have several columns: the two per-edge vectors multiplied, the product laid
    out as one column and then along the columns, times the features. The columns handed to `edgeScale` are the two
    vectors reshaped to one column each. -/
theorem hostScale_eq_edgeScale
    (h1 : (⟨1, ![m]⟩ : Shape).ShapeCasts ⟨2, ![m, 1]⟩)
    (hd0 : (⟨1, ![m]⟩ : Shape).BroadcastsInDim ⟨2, ![m, 1]⟩ ![0])
    (hd : (⟨2, ![m, 1]⟩ : Shape).BroadcastsInDim ⟨2, ![m, n]⟩ ![0, 1])
    (H : FVec Ideal ⟨2, ![m, n]⟩ .f32) (d1 d2 : FVec Ideal ⟨1, ![m]⟩ .f32) :
    mulf H (broadcastInDim ⟨2, ![m, n]⟩ ![0, 1] hd (broadcastInDim ⟨2, ![m, 1]⟩ ![0] hd0 (mulf d1 d2)))
      = edgeScale H (shapeCast ⟨2, ![m, 1]⟩ d1 h1) (shapeCast ⟨2, ![m, 1]⟩ d2 h1) := by
  funext i
  obtain ⟨p, q, rfl⟩ : ∃ (p : Fin m) (q : Fin n), i = ix2 p q := ⟨i 0, i 1, eq_ix2 i⟩
  rw [edgeScale_apply, Cert.SupCon.Ker.shapeCast_a_a1_apply, Cert.SupCon.Ker.shapeCast_a_a1_apply]
  show FloatOps.mulf (H (ix2 p q))
      (broadcastInDim ⟨2, ![m, n]⟩ ![0, 1] hd (broadcastInDim ⟨2, ![m, 1]⟩ ![0] hd0 (mulf d1 d2)) (ix2 p q)) = _
  rw [Cert.LibRowOps.colVec_host_apply]
  rfl

/-- The host's spelling when the features are one column: the product of the two per-edge vectors laid out as one
    column, times the features. -/
theorem hostScaleCol_eq_edgeScale
    (h1 : (⟨1, ![m]⟩ : Shape).ShapeCasts ⟨2, ![m, 1]⟩)
    (hd0 : (⟨1, ![m]⟩ : Shape).BroadcastsInDim ⟨2, ![m, 1]⟩ ![0])
    (H : FVec Ideal ⟨2, ![m, 1]⟩ .f32) (d1 d2 : FVec Ideal ⟨1, ![m]⟩ .f32) :
    mulf H (broadcastInDim ⟨2, ![m, 1]⟩ ![0] hd0 (mulf d1 d2))
      = edgeScale H (shapeCast ⟨2, ![m, 1]⟩ d1 h1) (shapeCast ⟨2, ![m, 1]⟩ d2 h1) := by
  funext i
  obtain ⟨p, q, rfl⟩ : ∃ (p : Fin m) (q : Fin 1), i = ix2 p q := ⟨i 0, i 1, eq_ix2 i⟩
  obtain rfl : q = 0 := Subsingleton.elim _ _
  rw [edgeScale_apply, Cert.SupCon.Ker.shapeCast_a_a1_apply, Cert.SupCon.Ker.shapeCast_a_a1_apply]
  show FloatOps.mulf (H (ix2 p (0 : Fin 1)))
      (broadcastInDim ⟨2, ![m, 1]⟩ ![0] hd0 (mulf d1 d2) (ix2 p (0 : Fin 1))) = _
  rw [Cert.LibRowOps.col1_host_apply]
  rfl

/-! ## The bias row and the rectifier -/

/-- The host's rectifier layer with the bias given as a vector: the vector broadcast to one row, the row laid down
    every row, the sum, the maximum with the zero array. The row handed to `biasRelu` is the vector reshaped. -/
theorem hostRelu_eq_biasRelu
    (h1 : (⟨1, ![n]⟩ : Shape).ShapeCasts ⟨2, ![1, n]⟩)
    (hd1 : (⟨1, ![n]⟩ : Shape).BroadcastsInDim ⟨2, ![1, n]⟩ ![1])
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (b : FVec Ideal ⟨1, ![n]⟩ .f32) :
    maximumf (addf X (broadcastInDim ⟨2, ![m, n]⟩ ![0, 1] hd (broadcastInDim ⟨2, ![1, n]⟩ ![1] hd1 b)))
        (broadcastInDim ⟨2, ![m, n]⟩ ![] hz (constant ⟨0, ![]⟩ .f32 0x00000000#32))
      = Cert.LibAffine.biasRelu X (shapeCast ⟨2, ![1, n]⟩ b h1) := by
  rw [Cert.LibRows.shapeCast_row_eq_broadcastInDim b h1 hd1]
  exact (Cert.LibAffine.biasRelu_eq_host hd hz X _).symm

/-! ## The bias row and the logistic function -/

/-- Entry `(r, j)` of `X` plus entry `j` of the row `Y`, through `x ↦ 1 / (1 + exp (−x))`. -/
def biasLogistic (X : (⟨2, ![m, n]⟩ : Shape).Idx → EReal) (Y : (⟨2, ![1, n]⟩ : Shape).Idx → EReal) :
    (⟨2, ![m, n]⟩ : Shape).Idx → EReal :=
  fun i => Ideal.logistic (X i + Y (ix2 (0 : Fin 1) (i 1)))

theorem biasLogistic_apply (X : (⟨2, ![m, n]⟩ : Shape).Idx → EReal) (Y : (⟨2, ![1, n]⟩ : Shape).Idx → EReal)
    (p : Fin m) (q : Fin n) :
    biasLogistic X Y (ix2 p q) = Ideal.logistic (X (ix2 p q) + Y (ix2 (0 : Fin 1) q)) := rfl

/-- The host's logistic layer with the bias given as a vector, the logistic function spelled out: the vector broadcast
    to one row, the row laid down every row, the sum, its negation, the exponential, one plus it, and one over
    that. -/
theorem hostLogistic_eq_biasLogistic
    (h1 : (⟨1, ![n]⟩ : Shape).ShapeCasts ⟨2, ![1, n]⟩)
    (hd1 : (⟨1, ![n]⟩ : Shape).BroadcastsInDim ⟨2, ![1, n]⟩ ![1])
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (b : FVec Ideal ⟨1, ![n]⟩ .f32) :
    Host.divf (broadcastInDim ⟨2, ![m, n]⟩ ![] hz (constant ⟨0, ![]⟩ .f32 0x3F800000#32))
        (addf (broadcastInDim ⟨2, ![m, n]⟩ ![] hz (constant ⟨0, ![]⟩ .f32 0x3F800000#32))
          (Host.exp (Host.negf (addf X
            (broadcastInDim ⟨2, ![m, n]⟩ ![0, 1] hd (broadcastInDim ⟨2, ![1, n]⟩ ![1] hd1 b))))))
      = biasLogistic X (shapeCast ⟨2, ![1, n]⟩ b h1) := by
  rw [Cert.LibRows.shapeCast_row_eq_broadcastInDim b h1 hd1]
  funext i
  obtain ⟨p, q, rfl⟩ : ∃ (p : Fin m) (q : Fin n), i = ix2 p q := ⟨i 0, i 1, eq_ix2 i⟩
  rw [biasLogistic_apply]
  show Ideal.div (broadcastInDim ⟨2, ![m, n]⟩ ![] hz (constant (F := Ideal) ⟨0, ![]⟩ .f32 0x3F800000#32) (ix2 p q))
      (broadcastInDim ⟨2, ![m, n]⟩ ![] hz (constant (F := Ideal) ⟨0, ![]⟩ .f32 0x3F800000#32) (ix2 p q)
        + Ideal.exp (-(X (ix2 p q)
            + broadcastInDim ⟨2, ![m, n]⟩ ![0, 1] hd (broadcastInDim ⟨2, ![1, n]⟩ ![1] hd1 b) (ix2 p q)))) = _
  rw [Cert.LibHostIdx.splat_apply, broadcastInDim_oneRow_apply, Ideal.ofBits_one_f32]
  rfl

end Cert.GcnLayers

end
-- ==== Proof.Network.lean ====
/-
  The two-layer graph convolution as ONE function of its six arguments, over the exact extended reals.

  From the edge list `ei` ([2, 4194304] node numbers) every node gets a self loop: `src` and `dst` are the two rows of
  `ei`, each followed by 0 … 131071. A node's degree is the number of edges that arrive at it (a scatter-add of ones
  along `dst`), `dinv` its inverse square root, and an edge's weight the product of `dinv` at its two ends (the columns
  `colS`, `colD`). A layer multiplies the node features by its weight matrix (`dense`), gathers the source row of every
  edge, scales it by the edge's weight (`edgeScale`), adds the scaled rows up per destination node (a scatter-add along
  `dst`), adds the bias row and applies the rectifier (first layer) or the logistic function (second layer). The result
  is the second layer's score of each original edge's source node.

  Node numbers are read the way the array indexing reads them: a negative number counts from the end (`wrapE`,
  `wrapN`), and the gathers and scatter-adds are the host's own operations, which this file only names: nothing below
  depends on what they do with a number that is out of range, since both programs hand them the same numbers.
-/
import proofs.«147779_j53317724013383_2_alg».proof.KernelIdeal
import proofs.«147779_j53317724013383_2_alg».proof.Proof.Gen.KernelIdeal
import proofs.«147779_j53317724013383_2_alg».proof.Proof.LibGraphLayers

noncomputable section

namespace Cert.KernelIdeal.Net

open Cert.KernelIdeal Cert.GcnLayers Idealize.ShloMosaic Idealize.ShloMosaic.TcCoe
open Cert.KernelIdeal.Facts₀ Cert.KernelIdeal.Facts

/-- An array of 32-bit integers of shape `S`. -/
abbrev IArr (S : Shape) : Type := IVec S 32
/-- An array of extended reals of shape `S`. -/
abbrev FArr (S : Shape) : Type := FVec Ideal S .f32

/-! ## The edge list with self loops -/

/-- Row `0` of the edge list: each edge's source node. -/
def row0 (ei : IArr S2x4194304) : IArr S4194304 :=
  shapeCast _ (extractStridedSlice S1x4194304 ![0, 0] ei slices_S2x4194304_S1x4194304_0_0) shapeCasts_S1x4194304_S4194304

/-- Row `1` of the edge list: each edge's destination node. -/
def row1 (ei : IArr S2x4194304) : IArr S4194304 :=
  shapeCast _ (extractStridedSlice S1x4194304 ![1, 0] ei slices_S2x4194304_S1x4194304_1_0) shapeCasts_S1x4194304_S4194304

/-- A row of the edge list followed by the self loops `0 … 131071`. -/
def withLoops (v : IArr S4194304) : IArr S4325376 :=
  concatenate S4325376 0 [⟨S4194304, v⟩, ⟨S131072, iotaInDim S131072 32 0⟩] concatenates_S4194304_S131072_S4325376_d0

def src (ei : IArr S2x4194304) : IArr S4325376 := withLoops (row0 ei)
def dst (ei : IArr S2x4194304) : IArr S4325376 := withLoops (row1 ei)

/-- Node numbers as a column of start indices, a negative number counted from the end (all edges with loops). -/
def wrapE (v : IArr S4325376) : IArr S4325376x1 :=
  broadcastInDim S4325376x1 ![0] bcast_S4325376_S4325376x1_0
    (select (cmpi .slt v (broadcastInDim S4325376 ![] bcast_S_S4325376 (constantI S_ 32 0#32)))
      (addi v (broadcastInDim S4325376 ![] bcast_S_S4325376 (constantI S_ 32 131072#32))) v)

/-- The same for the original edges only. -/
def wrapN (v : IArr S4194304) : IArr S4194304x1 :=
  broadcastInDim S4194304x1 ![0] bcast_S4194304_S4194304x1_0
    (select (cmpi .slt v (broadcastInDim S4194304 ![] bcast_S_S4194304 (constantI S_ 32 0#32)))
      (addi v (broadcastInDim S4194304 ![] bcast_S_S4194304 (constantI S_ 32 131072#32))) v)

/-- Destination node numbers as a column of scatter indices. -/
def dstCol (ei : IArr S2x4194304) : IArr S4325376x1 :=
  broadcastInDim S4325376x1 ![0] bcast_S4325376_S4325376x1_0 (dst ei)

/-! ## Degrees and edge weights -/

/-- The number of edges arriving at each node: ones added up per destination. -/
def deg (ei : IArr S2x4194304) : FArr S131072 :=
  Host.scatterAdd scatter_S131072_S4325376x1_S4325376_n_0_0_1
    (broadcastInDim S131072 ![] bcast_S_S131072 (constant S_ .f32 0x00000000#32))
    (dstCol ei)
    (broadcastInDim S4325376 ![] bcast_S_S4325376 (constant S_ .f32 0x3F800000#32))

/-- The inverse square root of each node's degree. -/
def dinv (ei : IArr S2x4194304) : FArr S131072 := Host.rsqrt (deg ei)

/-- `dinv` at the nodes a list of node numbers names, one entry per edge. -/
def dinvAt (ei : IArr S2x4194304) (v : IArr S4325376) : FArr S4325376 :=
  Host.gather gather_S131072_S4325376x1_S4325376_n_0_n_n_0_1_1 (dinv ei) (wrapE v)

/-- `dinv` at each edge's source, as one column. -/
def colS (ei : IArr S2x4194304) : FArr S4325376x1 :=
  shapeCast _ (dinvAt ei (src ei)) shapeCasts_S4325376_S4325376x1

/-- `dinv` at each edge's destination, as one column. -/
def colD (ei : IArr S2x4194304) : FArr S4325376x1 :=
  shapeCast _ (dinvAt ei (dst ei)) shapeCasts_S4325376_S4325376x1

/-! ## Gathering the source rows and adding up per destination -/

def gather16 (ei : IArr S2x4194304) (h : FArr S131072x16) : FArr S4325376x16 :=
  Host.gather gather_S131072x16_S4325376x1_S4325376x16_1_0_n_n_0_1_116 h (wrapE (src ei))

def scatter16 (ei : IArr S2x4194304) (w : FArr S4325376x16) : FArr S131072x16 :=
  Host.scatterAdd scatter_S131072x16_S4325376x1_S4325376x16_1_0_0_1
    (broadcastInDim S131072x16 ![] bcast_S_S131072x16 (constant S_ .f32 0x00000000#32)) (dstCol ei) w

def gather1 (ei : IArr S2x4194304) (h : FArr S131072x1) : FArr S4325376x1 :=
  Host.gather gather_S131072x1_S4325376x1_S4325376x1_1_0_n_n_0_1_11 h (wrapE (src ei))

def scatter1 (ei : IArr S2x4194304) (w : FArr S4325376x1) : FArr S131072x1 :=
  Host.scatterAdd scatter_S131072x1_S4325376x1_S4325376x1_1_0_0_1
    (broadcastInDim S131072x1 ![] bcast_S_S131072x1 (constant S_ .f32 0x00000000#32)) (dstCol ei) w

/-- Each original edge's source node's score. -/
def pick (ei : IArr S2x4194304) (s : FArr S131072x1) : FArr S4194304x1 :=
  Host.gather gather_S131072x1_S4194304x1_S4194304x1_1_0_n_n_0_1_11 s (wrapN (row0 ei))

/-! ## The layers -/

/-- The bias vectors as one-row matrices. -/
def biasRow1 (b1 : FArr S16) : FArr S1x16 := shapeCast _ b1 shapeCasts_S16_S1x16
def biasRow2 (b2 : FArr S1) : FArr S1x1 := shapeCast _ b2 shapeCasts_S1_S1x1

/-- The first layer's aggregate, before bias and rectifier. -/
def agg1 (x : FArr S131072x2) (W1 : FArr S2x16) (ei : IArr S2x4194304) : FArr S131072x16 :=
  scatter16 ei (edgeScale (gather16 ei (dense x W1)) (colS ei) (colD ei))

def hidden (x : FArr S131072x2) (W1 : FArr S2x16) (b1 : FArr S16) (ei : IArr S2x4194304) : FArr S131072x16 :=
  Cert.LibAffine.biasRelu (agg1 x W1 ei) (biasRow1 b1)

/-- The second layer's aggregate. -/
def agg2 (h : FArr S131072x16) (W2 : FArr S16x1) (ei : IArr S2x4194304) : FArr S131072x1 :=
  scatter1 ei (edgeScale (gather1 ei (dense h W2)) (colS ei) (colD ei))

def scores (h : FArr S131072x16) (W2 : FArr S16x1) (b2 : FArr S1) (ei : IArr S2x4194304) : FArr S131072x1 :=
  biasLogistic (agg2 h W2 ei) (biasRow2 b2)

/-- THE NETWORK: both programs' result as one function of the six arguments. -/
def net (x : FArr S131072x2) (W1 : FArr S2x16) (b1 : FArr S16) (W2 : FArr S16x1) (b2 : FArr S1)
    (ei : IArr S2x4194304) : FArr S4194304x1 :=
  pick ei (scores (hidden x W1 b1 ei) W2 b2 ei)

end Cert.KernelIdeal.Net

end
-- ==== Proof.Dense1.lean ====
/-
  The first matrix product, block by block.

  The node features `X` ([131072, 2]) are cut into 16 blocks of 8192 rows; at grid point `t` the body multiplies
  block `t` by the whole weight matrix `W` ([2, 16]) into a zero accumulator and writes the [8192, 16] result back as
  block `t` of the output. Row `8192·t + p` of the output therefore depends on row `8192·t + p` of `X` only, and is
  that row of `dense X W`; the 16 blocks tile the output, so the output array ends as `dense X W`. (The two roundings to
  a narrower float format inside the body are the identity on the extended reals.)
-/
import proofs.«147779_j53317724013383_2_alg».proof.Proof.Gen.KernelIdeal.Frame
import proofs.«147779_j53317724013383_2_alg».proof.Proof.LibGraphLayers
import proofs.«147779_j53317724013383_2_alg».proof.Proof.LibDotIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen Cert.GcnLayers

variable (V : (c : Dev nD) → (b : Ref sig .tc) → Buf (Elt Ideal) ((c : Thread nD τ).loc b))

theorem hz : (![0, 0] : Fin 2 → Nat) = fun _ => 0 := funext fun a => by fin_cases a <;> rfl

/-- Block indices over the grid: the features' and the output's block `t` is row block `t`; the weights are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at `(p, q)`: row `p` of the features' block against column `q` of the weights. -/
theorem pay_apply (x0 : Vec Ideal S8192x2 .f32) (x1 : Vec Ideal S2x16 .f32) (p : Fin 8192) (q : Fin 16) :
    k0_pay1 x0 x1 (ix2 p q) = ∑ c : Fin 2, x0 (ix2 p c) * x1 (ix2 c q) := by
  unfold k0_pay1
  exact DotIdx.matmul_plain_zero_apply dot_S8192x2_S2x16_S8192x16_1_0_0_1_n_n_wf none _ _ p q

/-- If the features' block holds rows `8192·T …` of `A` and the weights' block is `B`, the body's result at `(p, q)` is
    entry `(8192·T + p, q)` of the product. -/
theorem point_eq (A : S131072x2.Idx → EReal) (B : S2x16.Idx → EReal)
    (x0 : Vec Ideal S8192x2 .f32) (x1 : Vec Ideal S2x16 .f32) (T : ℕ) (hT : T < 16) (p : Fin 8192) (q : Fin 16)
    (hx0 : ∀ c' : Fin 2, x0 (ix2 p c') = A (ix2 (⟨T * 8192 + p.val, by omega⟩ : Fin 131072) c'))
    (hx1 : ∀ c' : Fin 2, x1 (ix2 c' q) = B (ix2 c' q)) :
    k0_pay1 x0 x1 (ix2 p q) = dense A B (ix2 (⟨T * 8192 + p.val, by omega⟩ : Fin 131072) q) := by
  rw [pay_apply, dense_apply]
  exact Finset.sum_congr rfl fun c' _ => by rw [hx0, hx1]

/-- The features' block at point `t` is rows `8192·t … 8192·t + 8191` of the features as the region finds them. -/
theorem blk_x (c : Dev nD) (t : Fin cfg0.N) (y : S8192x2.Idx) (k : S131072x2.Idx)
    (hk0 : (k 0).val = t.val * 8192 + (y 0).val) (hk1 : (k 1).val = (y 1).val) :
    (iblk0 V c 0 t : Vec Ideal S8192x2 .f32) y = (V c main_arg0 : S131072x2.Idx → EReal) k := by
  obtain ⟨e0, e1, -⟩ := idx_facts t
  unfold iblk0
  rw [View.read_apply]
  show V c main_arg0 _ = _
  congr 1
  funext a
  apply Fin.ext
  match a with
  | ⟨0, _⟩ => show win0_0.index t 0 * 8192 + 1 * (y 0).val = (k 0).val; rw [e0, hk0]; omega
  | ⟨1, _⟩ => show win0_0.index t 1 * 2 + 1 * (y 1).val = (k 1).val; rw [e1, hk1]; omega

/-- The weights' block at every point is the whole weight matrix. -/
theorem blk_w (c : Dev nD) (t : Fin cfg0.N) (y : S2x16.Idx) :
    (iblk0 V c 1 t : Vec Ideal S2x16 .f32) y = (V c main_arg1 : S2x16.Idx → EReal) y := by
  obtain ⟨-, -, e2, e3, -⟩ := idx_facts t
  unfold iblk0
  rw [View.read_apply]
  show V c main_arg1 _ = _
  congr 1
  funext a
  apply Fin.ext
  match a with
  | ⟨0, _⟩ => show win0_1.index t 0 * 2 + 1 * (y 0).val = (y 0).val; rw [e2]; omega
  | ⟨1, _⟩ => show win0_1.index t 1 * 16 + 1 * (y 1).val = (y 1).val; rw [e3]; omega

/-- What point `t` writes back is block `t` of the product of the arrays the region finds. -/
theorem flushed_eq (c : Dev nD) (t : Fin cfg0.N) :
    (dat0 V c).flushed 2 t
      = ((cfg0.win 2).blk t).view.read (Elt Ideal)
          (dense (V c main_arg0 : S131072x2.Idx → EReal) (V c main_arg1 : S2x16.Idx → EReal)) := by
  show (cfg0.win 2).cut (grid0.coords t) ((dat0 V c).after 2 t) = _
  rw [after0_2]
  unfold out0_2
  rw [View.canon_unit_zero hz]
  simp only [View.ld_unit_zero (S := S8192x2) hz, View.ld_unit_zero (S := S2x16) hz]
  obtain ⟨-, -, -, -, e4, e5⟩ := idx_facts t
  have ht : t.val < 16 := lt_of_lt_of_eq t.isLt N_0
  funext j
  obtain ⟨p, q, rfl⟩ : ∃ (p : Fin 8192) (q : Fin 16), j = ix2 p q := ⟨j 0, j 1, eq_ix2 j⟩
  refine (point_eq (V c main_arg0) (V c main_arg1) (iblk0 V c 0 t) (iblk0 V c 1 t) t.val ht p q
    (fun c' => blk_x V c t _ _ rfl rfl) (fun c' => blk_w V c t _)).trans ?_
  rw [View.read_apply]
  congr 1
  funext a
  apply Fin.ext
  match a with
  | ⟨0, _⟩ => show t.val * 8192 + p.val = win0_2.index t 0 * 8192 + 1 * p.val; rw [e4]; omega
  | ⟨1, _⟩ => show q.val = win0_2.index t 1 * 16 + 1 * q.val; rw [e5]; omega

/-- An index of the output is in point `t`'s block iff each coordinate is in the block's range on its axis. -/
theorem mem_blk (t : Fin cfg0.N) (i : S131072x16.Idx) :
    i ∈ ((cfg0.win 2).blk t).view.set
      ↔ ∀ a : Fin 2, win0_2.index t a * S8192x16.size a ≤ (i a).val
          ∧ (i a).val < win0_2.index t a * S8192x16.size a + S8192x16.size a := by
  show i ∈ ((View.whole main_v28).slice (win0_2.rect t)).set ↔ _
  rw [View.set_slice_whole, Rect.mem_set_unit]
  exact Iff.rfl

/-- Every row of the output lies in the block of the point `row / 8192`. -/
theorem cover (i : S131072x16.Idx) : ∃ t : Fin cfg0.N, (cfg0.win 2).flush t = true ∧ i ∈ ((cfg0.win 2).blk t).view.set := by
  have hi0 : (i 0).val < 131072 := (i 0).isLt
  have hi1 : (i 1).val < 16 := (i 1).isLt
  have hN : cfg0.N = 16 := N_0
  let t : Fin cfg0.N := ⟨(i 0).val / 8192, by rw [hN]; omega⟩
  obtain ⟨-, -, -, -, e4, e5⟩ := idx_facts t
  have e4' : win0_2.index t 0 = (i 0).val / 8192 := e4
  refine ⟨t, flush0_2 t, ?_⟩
  rw [mem_blk]
  intro a
  match a with
  | ⟨0, _⟩ => show win0_2.index t 0 * 8192 ≤ (i 0).val ∧ (i 0).val < win0_2.index t 0 * 8192 + 8192; rw [e4']; omega
  | ⟨1, _⟩ => show win0_2.index t 1 * 16 ≤ (i 1).val ∧ (i 1).val < win0_2.index t 1 * 16 + 16; rw [e5]; omega

/-- THE OUTPUT ARRAY after the region: the product of the features and the weights as the region finds them. -/
theorem final (c : Dev nD) :
    (dat0 V c).arrAt 2 cfg0.N
      = dense (V c main_arg0 : S131072x2.Idx → EReal) (V c main_arg1 : S2x16.Idx → EReal) :=
  (dat0 V c).arrAt_eq_of_cover 2 _ (fun t _ => flushed_eq V c t) cover

end Cert.KernelIdeal.Dense1

end
-- ==== Proof.Scale1.lean ====
/-
  The first layer's edge weighting, block by block.

  The gathered source rows `H` ([4325376, 16], one row per edge) and the two per-edge columns `S`, `D` (the inverse
  square root of the degree at the edge's source and at its destination) are cut into 1056 blocks of 4096 edges. At grid
  point `t` the body multiplies the two column blocks, lays the product along the 16 feature columns and multiplies the
  feature block by it; the result is written back as block `t` of the output. Row `4096·t + p` of the output depends on
  row `4096·t + p` of the three inputs only, and the 1056 blocks tile the output: it ends as `edgeScale H S D`.
-/
import proofs.«147779_j53317724013383_2_alg».proof.Proof.Gen.KernelIdeal.Frame
import proofs.«147779_j53317724013383_2_alg».proof.Proof.LibGraphLayers
import proofs.«147779_j53317724013383_2_alg».proof.Proof.LibKeepdims
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale1

open Cert.KernelIdeal Cert.KernelIdeal.Gen Cert.GcnLayers

variable (V : (c : Dev nD) → (b : Ref sig .tc) → Buf (Elt Ideal) ((c : Thread nD τ).loc b))

theorem hz : (![0, 0] : Fin 2 → Nat) = fun _ => 0 := funext fun a => by fin_cases a <;> rfl

/-- Block indices over the grid: every window's block `t` is row block `t`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

/-- The body's result at `(p, q)`: the feature times the product of the two per-edge columns at row `p`. -/
theorem pay_apply (s d : Vec Ideal S4096x1 .f32) (h : Vec Ideal S4096x16 .f32) (p : Fin 4096) (q : Fin 16) :
    k1_pay1 s d h (ix2 p q) = h (ix2 p q) * (s (ix2 p (0 : Fin 1)) * d (ix2 p (0 : Fin 1))) := by
  unfold k1_pay1
  simp only [shapeCast_self]
  show FloatOps.mulf (h (ix2 p q)) (broadcastTo S4096x16 (mulf (F := Ideal) (φ := .f32) s d) broadcasts_S4096x1_S4096x16 (ix2 p q)) = _
  rw [Cert.SupCon.Ker.broadcastTo_a1_ab_apply]
  rfl

/-- If the three blocks hold rows `4096·T …` of `H`, `S`, `D`, the body's result at `(p, q)` is entry `(4096·T + p, q)` of
    the scaled features. -/
theorem point_eq (H : S4325376x16.Idx → EReal) (S D : S4325376x1.Idx → EReal)
    (xs xd : Vec Ideal S4096x1 .f32) (xh : Vec Ideal S4096x16 .f32) (T : ℕ) (hT : T < 1056) (p : Fin 4096) (q : Fin 16)
    (hh : xh (ix2 p q) = H (ix2 (⟨T * 4096 + p.val, by omega⟩ : Fin 4325376) q))
    (hs : xs (ix2 p (0 : Fin 1)) = S (ix2 (⟨T * 4096 + p.val, by omega⟩ : Fin 4325376) (0 : Fin 1)))
    (hd : xd (ix2 p (0 : Fin 1)) = D (ix2 (⟨T * 4096 + p.val, by omega⟩ : Fin 4325376) (0 : Fin 1))) :
    k1_pay1 xs xd xh (ix2 p q) = edgeScale H S D (ix2 (⟨T * 4096 + p.val, by omega⟩ : Fin 4325376) q) := by
  rw [pay_apply, edgeScale_apply, hh, hs, hd]

/-- The features' block at point `t` is rows `4096·t …` of the gathered features as the region finds them. -/
theorem blk_h (c : Dev nD) (t : Fin cfg1.N) (y : S4096x16.Idx) (k : S4325376x16.Idx)
    (hk0 : (k 0).val = t.val * 4096 + (y 0).val) (hk1 : (k 1).val = (y 1).val) :
    (iblk1 V c 0 t : Vec Ideal S4096x16 .f32) y = (V c main_v35 : S4325376x16.Idx → EReal) k := by
  have e0 := (idx_facts t).1.1
  have e1 := (idx_facts t).1.2
  unfold iblk1
  rw [View.read_apply]
  show V c main_v35 _ = _
  congr 1
  funext a
  apply Fin.ext
  match a with
  | ⟨0, _⟩ => show win1_0.index t 0 * 4096 + 1 * (y 0).val = (k 0).val; rw [e0, hk0]; omega
  | ⟨1, _⟩ => show win1_0.index t 1 * 16 + 1 * (y 1).val = (k 1).val; rw [e1, hk1]; omega

/-- The source column's block at point `t` is rows `4096·t …` of the source column. -/
theorem blk_s (c : Dev nD) (t : Fin cfg1.N) (y : S4096x1.Idx) (k : S4325376x1.Idx)
    (hk0 : (k 0).val = t.val * 4096 + (y 0).val) (hk1 : (k 1).val = (y 1).val) :
    (iblk1 V c 1 t : Vec Ideal S4096x1 .f32) y = (V c main_v19 : S4325376x1.Idx → EReal) k := by
  have e0 := (idx_facts t).2.1.1
  have e1 := (idx_facts t).2.1.2
  unfold iblk1
  rw [View.read_apply]
  show V c main_v19 _ = _
  congr 1
  funext a
  apply Fin.ext
  match a with
  | ⟨0, _⟩ => show win1_1.index t 0 * 4096 + 1 * (y 0).val = (k 0).val; rw [e0, hk0]; omega
  | ⟨1, _⟩ => show win1_1.index t 1 * 1 + 1 * (y 1).val = (k 1).val; rw [e1, hk1]; omega

/-- The destination column's block at point `t` is rows `4096·t …` of the destination column. -/
theorem blk_d (c : Dev nD) (t : Fin cfg1.N) (y : S4096x1.Idx) (k : S4325376x1.Idx)
    (hk0 : (k 0).val = t.val * 4096 + (y 0).val) (hk1 : (k 1).val = (y 1).val) :
    (iblk1 V c 2 t : Vec Ideal S4096x1 .f32) y = (V c main_v27 : S4325376x1.Idx → EReal) k := by
  have e0 := (idx_facts t).2.2.1.1
  have e1 := (idx_facts t).2.2.1.2
  unfold iblk1
  rw [View.read_apply]
  show V c main_v27 _ = _
  congr 1
  funext a
  apply Fin.ext
  match a with
  | ⟨0, _⟩ => show win1_2.index t 0 * 4096 + 1 * (y 0).val = (k 0).val; rw [e0, hk0]; omega
  | ⟨1, _⟩ => show win1_2.index t 1 * 1 + 1 * (y 1).val = (k 1).val; rw [e1, hk1]; omega

/-- What point `t` writes back is block `t` of the scaled features of the arrays the region finds. -/
theorem flushed_eq (c : Dev nD) (t : Fin cfg1.N) :
    (dat1 V c).flushed 3 t
      = ((cfg1.win 3).blk t).view.read (Elt Ideal)
          (edgeScale (V c main_v35 : S4325376x16.Idx → EReal) (V c main_v19 : S4325376x1.Idx → EReal)
            (V c main_v27 : S4325376x1.Idx → EReal)) := by
  show (cfg1.win 3).cut (grid1.coords t) ((dat1 V c).after 3 t) = _
  rw [after1_3]
  unfold out1_3
  rw [View.canon_unit_zero hz]
  simp only [View.ld_unit_zero (S := S4096x1) hz, View.ld_unit_zero (S := S4096x16) hz]
  have e6 := (idx_facts t).2.2.2.1
  have e7 := (idx_facts t).2.2.2.2
  have ht : t.val < 1056 := lt_of_lt_of_eq t.isLt N_1
  funext j
  obtain ⟨p, q, rfl⟩ : ∃ (p : Fin 4096) (q : Fin 16), j = ix2 p q := ⟨j 0, j 1, eq_ix2 j⟩
  refine (point_eq (V c main_v35) (V c main_v19) (V c main_v27) (iblk1 V c 1 t) (iblk1 V c 2 t) (iblk1 V c 0 t)
    t.val ht p q (blk_h V c t _ _ rfl rfl) (blk_s V c t _ _ rfl rfl) (blk_d V c t _ _ rfl rfl)).trans ?_
  rw [View.read_apply]
  congr 1
  funext a
  apply Fin.ext
  match a with
  | ⟨0, _⟩ => show t.val * 4096 + p.val = win1_3.index t 0 * 4096 + 1 * p.val; rw [e6]; omega
  | ⟨1, _⟩ => show q.val = win1_3.index t 1 * 16 + 1 * q.val; rw [e7]; omega

/-- An index of the output is in point `t`'s block iff each coordinate is in the block's range on its axis. -/
theorem mem_blk (t : Fin cfg1.N) (i : S4325376x16.Idx) :
    i ∈ ((cfg1.win 3).blk t).view.set
      ↔ ∀ a : Fin 2, win1_3.index t a * S4096x16.size a ≤ (i a).val
          ∧ (i a).val < win1_3.index t a * S4096x16.size a + S4096x16.size a := by
  show i ∈ ((View.whole main_v36).slice (win1_3.rect t)).set ↔ _
  rw [View.set_slice_whole, Rect.mem_set_unit]
  exact Iff.rfl

/-- Every row of the output lies in the block of the point `row / 4096`. -/
theorem cover (i : S4325376x16.Idx) : ∃ t : Fin cfg1.N, (cfg1.win 3).flush t = true ∧ i ∈ ((cfg1.win 3).blk t).view.set := by
  have hi0 : (i 0).val < 4325376 := (i 0).isLt
  have hi1 : (i 1).val < 16 := (i 1).isLt
  have hN : cfg1.N = 1056 := N_1
  let t : Fin cfg1.N := ⟨(i 0).val / 4096, by rw [hN]; omega⟩
  have e6 : win1_3.index t 0 = (i 0).val / 4096 := (idx_facts t).2.2.2.1
  have e7 := (idx_facts t).2.2.2.2
  refine ⟨t, flush1_3 t, ?_⟩
  rw [mem_blk]
  intro a
  match a with
  | ⟨0, _⟩ => show win1_3.index t 0 * 4096 ≤ (i 0).val ∧ (i 0).val < win1_3.index t 0 * 4096 + 4096; rw [e6]; omega
  | ⟨1, _⟩ => show win1_3.index t 1 * 16 ≤ (i 1).val ∧ (i 1).val < win1_3.index t 1 * 16 + 16; rw [e7]; omega

/-- THE OUTPUT ARRAY after the region: the gathered features scaled by the edges' weights, of the arrays the region
    finds. -/
theorem final (c : Dev nD) :
    (dat1 V c).arrAt 3 cfg1.N
      = edgeScale (V c main_v35 : S4325376x16.Idx → EReal) (V c main_v19 : S4325376x1.Idx → EReal)
          (V c main_v27 : S4325376x1.Idx → EReal) :=
  (dat1 V c).arrAt_eq_of_cover 3 _ (fun t _ => flushed_eq V c t) cover

end Cert.KernelIdeal.Scale1

end
-- ==== Proof.Relu.lean ====
/-
  The first layer's bias and rectifier, block by block.

  The aggregate `A` ([131072, 16]) is cut into 16 blocks of 8192 rows; the bias is one row `Y` ([1, 16]). At grid point
  `t` the body lays the row down the block's 8192 rows, adds, and takes the maximum with zero; the result is written
  back as block `t` of the output. Row `8192·t + p` of the output depends on row `8192·t + p` of `A` and on `Y` only, and
  the 16 blocks tile the output: it ends as `biasRelu A Y`.
-/
import proofs.«147779_j53317724013383_2_alg».proof.Proof.Gen.KernelIdeal.Frame
import proofs.«147779_j53317724013383_2_alg».proof.Proof.LibGraphLayers
import proofs.«147779_j53317724013383_2_alg».proof.Proof.LibRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Relu

open Cert.KernelIdeal Cert.KernelIdeal.Gen Cert.GcnLayers

variable (V : (c : Dev nD) → (b : Ref sig .tc) → Buf (Elt Ideal) ((c : Thread nD τ).loc b))

theorem hz : (![0, 0] : Fin 2 → Nat) = fun _ => 0 := funext fun a => by fin_cases a <;> rfl

/-- Block indices over the grid: the aggregate's and the output's block `t` is row block `t`; the bias row is one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's result at `(p, q)`: the aggregate's entry plus the bias row's entry `q`, through the activation. -/
theorem pay_apply (y : Vec Ideal S1x16 .f32) (x : Vec Ideal S8192x16 .f32) (p : Fin 8192) (q : Fin 16) :
    k2_pay1 y x (ix2 p q) = max (x (ix2 p q) + y (ix2 (0 : Fin 1) q)) 0 := by
  have e := Cert.LibRows.broadcastTo_oneRow_apply (m := 8192) (y : S1x16.Idx → EReal)
    shapeCasts_S1x16_S1x16 broadcasts_S1x16_S8192x16 p q
  rw [shapeCast_self] at e
  unfold k2_pay1
  simp only [shapeCast_self]
  show max (x (ix2 p q) + broadcastTo S8192x16 y broadcasts_S1x16_S8192x16 (ix2 p q)) (Ideal.ofBits .f32 0x00000000#32) = _
  rw [e, Ideal.ofBits_zero_f32]

/-- If the aggregate's block holds rows `8192·T …` of `A` and the bias block is the row `Y`, the body's result at `(p, q)`
    is entry `(8192·T + p, q)` of the layer's output. -/
theorem point_eq (A : S131072x16.Idx → EReal) (Y : S1x16.Idx → EReal)
    (xy : Vec Ideal S1x16 .f32) (xx : Vec Ideal S8192x16 .f32) (T : ℕ) (hT : T < 16) (p : Fin 8192) (q : Fin 16)
    (hx : xx (ix2 p q) = A (ix2 (⟨T * 8192 + p.val, by omega⟩ : Fin 131072) q))
    (hy : xy (ix2 (0 : Fin 1) q) = Y (ix2 (0 : Fin 1) q)) :
    k2_pay1 xy xx (ix2 p q) = Cert.LibAffine.biasRelu A Y (ix2 (⟨T * 8192 + p.val, by omega⟩ : Fin 131072) q) := by
  rw [pay_apply, Cert.LibAffine.biasRelu_apply, hx, hy]

/-- The aggregate's block at point `t` is rows `8192·t … 8192·t + 8191` of the aggregate as the region finds it. -/
theorem blk_x (c : Dev nD) (t : Fin cfg2.N) (y : S8192x16.Idx) (k : S131072x16.Idx)
    (hk0 : (k 0).val = t.val * 8192 + (y 0).val) (hk1 : (k 1).val = (y 1).val) :
    (iblk2 V c 0 t : Vec Ideal S8192x16 .f32) y = (V c main_v39 : S131072x16.Idx → EReal) k := by
  obtain ⟨e0, e1, -⟩ := idx_facts t
  unfold iblk2
  rw [View.read_apply]
  show V c main_v39 _ = _
  congr 1
  funext a
  apply Fin.ext
  match a with
  | ⟨0, _⟩ => show win2_0.index t 0 * 8192 + 1 * (y 0).val = (k 0).val; rw [e0, hk0]; omega
  | ⟨1, _⟩ => show win2_0.index t 1 * 16 + 1 * (y 1).val = (k 1).val; rw [e1, hk1]; omega

/-- The bias row's block at every point is the whole row. -/
theorem blk_y (c : Dev nD) (t : Fin cfg2.N) (y : S1x16.Idx) :
    (iblk2 V c 1 t : Vec Ideal S1x16 .f32) y = (V c main_v40 : S1x16.Idx → EReal) y := by
  obtain ⟨-, -, e2, e3, -⟩ := idx_facts t
  unfold iblk2
  rw [View.read_apply]
  show V c main_v40 _ = _
  congr 1
  funext a
  apply Fin.ext
  match a with
  | ⟨0, _⟩ => show win2_1.index t 0 * 1 + 1 * (y 0).val = (y 0).val; rw [e2]; omega
  | ⟨1, _⟩ => show win2_1.index t 1 * 16 + 1 * (y 1).val = (y 1).val; rw [e3]; omega

/-- What point `t` writes back is block `t` of the layer's output of the arrays the region finds. -/
theorem flushed_eq (c : Dev nD) (t : Fin cfg2.N) :
    (dat2 V c).flushed 2 t
      = ((cfg2.win 2).blk t).view.read (Elt Ideal)
          (Cert.LibAffine.biasRelu (V c main_v39 : S131072x16.Idx → EReal) (V c main_v40 : S1x16.Idx → EReal)) := by
  show (cfg2.win 2).cut (grid2.coords t) ((dat2 V c).after 2 t) = _
  rw [after2_2]
  unfold out2_2
  rw [View.canon_unit_zero hz]
  simp only [View.ld_unit_zero (S := S8192x16) hz, View.ld_unit_zero (S := S1x16) hz]
  obtain ⟨-, -, -, -, e4, e5⟩ := idx_facts t
  have ht : t.val < 16 := lt_of_lt_of_eq t.isLt N_2
  funext j
  obtain ⟨p, q, rfl⟩ : ∃ (p : Fin 8192) (q : Fin 16), j = ix2 p q := ⟨j 0, j 1, eq_ix2 j⟩
  refine (point_eq (V c main_v39) (V c main_v40) (iblk2 V c 1 t) (iblk2 V c 0 t) t.val ht p q
    (blk_x V c t _ _ rfl rfl) (blk_y V c t _)).trans ?_
  rw [View.read_apply]
  congr 1
  funext a
  apply Fin.ext
  match a with
  | ⟨0, _⟩ => show t.val * 8192 + p.val = win2_2.index t 0 * 8192 + 1 * p.val; rw [e4]; omega
  | ⟨1, _⟩ => show q.val = win2_2.index t 1 * 16 + 1 * q.val; rw [e5]; omega

/-- An index of the output is in point `t`'s block iff each coordinate is in the block's range on its axis. -/
theorem mem_blk (t : Fin cfg2.N) (i : S131072x16.Idx) :
    i ∈ ((cfg2.win 2).blk t).view.set
      ↔ ∀ a : Fin 2, win2_2.index t a * S8192x16.size a ≤ (i a).val
          ∧ (i a).val < win2_2.index t a * S8192x16.size a + S8192x16.size a := by
  show i ∈ ((View.whole main_v41).slice (win2_2.rect t)).set ↔ _
  rw [View.set_slice_whole, Rect.mem_set_unit]
  exact Iff.rfl

/-- Every row of the output lies in the block of the point `row / 8192`. -/
theorem cover (i : S131072x16.Idx) : ∃ t : Fin cfg2.N, (cfg2.win 2).flush t = true ∧ i ∈ ((cfg2.win 2).blk t).view.set := by
  have hi0 : (i 0).val < 131072 := (i 0).isLt
  have hi1 : (i 1).val < 16 := (i 1).isLt
  have hN : cfg2.N = 16 := N_2
  let t : Fin cfg2.N := ⟨(i 0).val / 8192, by rw [hN]; omega⟩
  obtain ⟨-, -, -, -, e4, e5⟩ := idx_facts t
  have e4' : win2_2.index t 0 = (i 0).val / 8192 := e4
  refine ⟨t, flush2_2 t, ?_⟩
  rw [mem_blk]
  intro a
  match a with
  | ⟨0, _⟩ => show win2_2.index t 0 * 8192 ≤ (i 0).val ∧ (i 0).val < win2_2.index t 0 * 8192 + 8192; rw [e4']; omega
  | ⟨1, _⟩ => show win2_2.index t 1 * 16 ≤ (i 1).val ∧ (i 1).val < win2_2.index t 1 * 16 + 16; rw [e5]; omega

/-- THE OUTPUT ARRAY after the region: the layer's output of the aggregate and the bias row as the region finds them. -/
theorem final (c : Dev nD) :
    (dat2 V c).arrAt 2 cfg2.N
      = Cert.LibAffine.biasRelu (V c main_v39 : S131072x16.Idx → EReal) (V c main_v40 : S1x16.Idx → EReal) :=
  (dat2 V c).arrAt_eq_of_cover 2 _ (fun t _ => flushed_eq V c t) cover

end Cert.KernelIdeal.Relu

end
-- ==== Proof.Dense2.lean ====
/-
  The second matrix product, block by block.

  The hidden features `H` ([131072, 16]) are cut into 16 blocks of 8192 rows; at grid point `t` the body multiplies
  block `t` by the whole weight column `W` ([16, 1]) into a zero accumulator and writes the [8192, 1] result back as
  block `t` of the output. Row `8192·t + p` of the output depends on row `8192·t + p` of `H` only and is that row of
  `dense H W`; the 16 blocks tile the output, so the output array ends as `dense H W`. (The casts of a block to its own
  shape and the two roundings to a narrower float format are the identity on the extended reals.)
-/
import proofs.«147779_j53317724013383_2_alg».proof.Proof.Gen.KernelIdeal.Frame
import proofs.«147779_j53317724013383_2_alg».proof.Proof.LibGraphLayers
import proofs.«147779_j53317724013383_2_alg».proof.Proof.LibDotIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.GcnLayers

variable (V : (c : Dev nD) → (b : Ref sig .tc) → Buf (Elt Ideal) ((c : Thread nD τ).loc b))

theorem hz : (![0, 0] : Fin 2 → Nat) = fun _ => 0 := funext fun a => by fin_cases a <;> rfl

/-- Block indices over the grid: the features' and the output's block `t` is row block `t`; the weights are one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's result at `(p, q)`: row `p` of the features' block against column `q` of the weights. -/
theorem pay_apply (x0 : Vec Ideal S8192x16 .f32) (x1 : Vec Ideal S16x1 .f32) (p : Fin 8192) (q : Fin 1) :
    k3_pay1 x0 x1 (ix2 p q) = ∑ c : Fin 16, x0 (ix2 p c) * x1 (ix2 c q) := by
  unfold k3_pay1
  rw [shapeCast_self]
  exact DotIdx.matmul_plain_zero_apply dot_S8192x16_S16x1_S8192x1_1_0_0_1_n_n_wf none _ _ p q

/-- If the features' block holds rows `8192·T …` of `A` and the weights' block is `B`, the body's result at `(p, q)` is
    entry `(8192·T + p, q)` of the product. -/
theorem point_eq (A : S131072x16.Idx → EReal) (B : S16x1.Idx → EReal)
    (x0 : Vec Ideal S8192x16 .f32) (x1 : Vec Ideal S16x1 .f32) (T : ℕ) (hT : T < 16) (p : Fin 8192) (q : Fin 1)
    (hx0 : ∀ c' : Fin 16, x0 (ix2 p c') = A (ix2 (⟨T * 8192 + p.val, by omega⟩ : Fin 131072) c'))
    (hx1 : ∀ c' : Fin 16, x1 (ix2 c' q) = B (ix2 c' q)) :
    k3_pay1 x0 x1 (ix2 p q) = dense A B (ix2 (⟨T * 8192 + p.val, by omega⟩ : Fin 131072) q) := by
  rw [pay_apply, dense_apply]
  exact Finset.sum_congr rfl fun c' _ => by rw [hx0, hx1]

/-- The features' block at point `t` is rows `8192·t … 8192·t + 8191` of the features as the region finds them. -/
theorem blk_x (c : Dev nD) (t : Fin cfg3.N) (y : S8192x16.Idx) (k : S131072x16.Idx)
    (hk0 : (k 0).val = t.val * 8192 + (y 0).val) (hk1 : (k 1).val = (y 1).val) :
    (iblk3 V c 0 t : Vec Ideal S8192x16 .f32) y = (V c main_v41 : S131072x16.Idx → EReal) k := by
  obtain ⟨e0, e1, -⟩ := idx_facts t
  unfold iblk3
  rw [View.read_apply]
  show V c main_v41 _ = _
  congr 1
  funext a
  apply Fin.ext
  match a with
  | ⟨0, _⟩ => show win3_0.index t 0 * 8192 + 1 * (y 0).val = (k 0).val; rw [e0, hk0]; omega
  | ⟨1, _⟩ => show win3_0.index t 1 * 16 + 1 * (y 1).val = (k 1).val; rw [e1, hk1]; omega

/-- The weights' block at every point is the whole weight matrix. -/
theorem blk_w (c : Dev nD) (t : Fin cfg3.N) (y : S16x1.Idx) :
    (iblk3 V c 1 t : Vec Ideal S16x1 .f32) y = (V c main_arg3 : S16x1.Idx → EReal) y := by
  obtain ⟨-, -, e2, e3, -⟩ := idx_facts t
  unfold iblk3
  rw [View.read_apply]
  show V c main_arg3 _ = _
  congr 1
  funext a
  apply Fin.ext
  match a with
  | ⟨0, _⟩ => show win3_1.index t 0 * 16 + 1 * (y 0).val = (y 0).val; rw [e2]; omega
  | ⟨1, _⟩ => show win3_1.index t 1 * 1 + 1 * (y 1).val = (y 1).val; rw [e3]; omega

/-- What point `t` writes back is block `t` of the product of the arrays the region finds. -/
theorem flushed_eq (c : Dev nD) (t : Fin cfg3.N) :
    (dat3 V c).flushed 2 t
      = ((cfg3.win 2).blk t).view.read (Elt Ideal)
          (dense (V c main_v41 : S131072x16.Idx → EReal) (V c main_arg3 : S16x1.Idx → EReal)) := by
  show (cfg3.win 2).cut (grid3.coords t) ((dat3 V c).after 2 t) = _
  rw [after3_2]
  unfold out3_2
  rw [View.canon_unit_zero hz]
  simp only [View.ld_unit_zero (S := S8192x16) hz, View.ld_unit_zero (S := S16x1) hz]
  obtain ⟨-, -, -, -, e4, e5⟩ := idx_facts t
  have ht : t.val < 16 := lt_of_lt_of_eq t.isLt N_3
  funext j
  obtain ⟨p, q, rfl⟩ : ∃ (p : Fin 8192) (q : Fin 1), j = ix2 p q := ⟨j 0, j 1, eq_ix2 j⟩
  refine (point_eq (V c main_v41) (V c main_arg3) (iblk3 V c 0 t) (iblk3 V c 1 t) t.val ht p q
    (fun c' => blk_x V c t _ _ rfl rfl) (fun c' => blk_w V c t _)).trans ?_
  rw [View.read_apply]
  congr 1
  funext a
  apply Fin.ext
  match a with
  | ⟨0, _⟩ => show t.val * 8192 + p.val = win3_2.index t 0 * 8192 + 1 * p.val; rw [e4]; omega
  | ⟨1, _⟩ => show q.val = win3_2.index t 1 * 1 + 1 * q.val; rw [e5]; omega

/-- An index of the output is in point `t`'s block iff each coordinate is in the block's range on its axis. -/
theorem mem_blk (t : Fin cfg3.N) (i : S131072x1.Idx) :
    i ∈ ((cfg3.win 2).blk t).view.set
      ↔ ∀ a : Fin 2, win3_2.index t a * S8192x1.size a ≤ (i a).val
          ∧ (i a).val < win3_2.index t a * S8192x1.size a + S8192x1.size a := by
  show i ∈ ((View.whole main_v42).slice (win3_2.rect t)).set ↔ _
  rw [View.set_slice_whole, Rect.mem_set_unit]
  exact Iff.rfl

/-- Every row of the output lies in the block of the point `row / 8192`. -/
theorem cover (i : S131072x1.Idx) : ∃ t : Fin cfg3.N, (cfg3.win 2).flush t = true ∧ i ∈ ((cfg3.win 2).blk t).view.set := by
  have hi0 : (i 0).val < 131072 := (i 0).isLt
  have hi1 : (i 1).val < 1 := (i 1).isLt
  have hN : cfg3.N = 16 := N_3
  let t : Fin cfg3.N := ⟨(i 0).val / 8192, by rw [hN]; omega⟩
  obtain ⟨-, -, -, -, e4, e5⟩ := idx_facts t
  have e4' : win3_2.index t 0 = (i 0).val / 8192 := e4
  refine ⟨t, flush3_2 t, ?_⟩
  rw [mem_blk]
  intro a
  match a with
  | ⟨0, _⟩ => show win3_2.index t 0 * 8192 ≤ (i 0).val ∧ (i 0).val < win3_2.index t 0 * 8192 + 8192; rw [e4']; omega
  | ⟨1, _⟩ => show win3_2.index t 1 * 1 ≤ (i 1).val ∧ (i 1).val < win3_2.index t 1 * 1 + 1; rw [e5]; omega

/-- THE OUTPUT ARRAY after the region: the product of the features and the weights as the region finds them. -/
theorem final (c : Dev nD) :
    (dat3 V c).arrAt 2 cfg3.N
      = dense (V c main_v41 : S131072x16.Idx → EReal) (V c main_arg3 : S16x1.Idx → EReal) :=
  (dat3 V c).arrAt_eq_of_cover 2 _ (fun t _ => flushed_eq V c t) cover

end Cert.KernelIdeal.Dense2

end
-- ==== Proof.Scale2.lean ====
/-
  The second layer's edge weighting, block by block.

  The gathered source rows `H` ([4325376, 1], one score per edge) and the two per-edge columns `S`, `D` are cut into
  1056 blocks of 4096 edges. At grid point `t` the body multiplies the two column blocks and multiplies the feature
  block by the product; the result is written back as block `t` of the output. Row `4096·t + p` of the output depends on
  row `4096·t + p` of the three inputs only, and the 1056 blocks tile the output: it ends as `edgeScale H S D`.
-/
import proofs.«147779_j53317724013383_2_alg».proof.Proof.Gen.KernelIdeal.Frame
import proofs.«147779_j53317724013383_2_alg».proof.Proof.LibGraphLayers
import proofs.«147779_j53317724013383_2_alg».proof.Proof.LibKeepdims
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale2

open Cert.KernelIdeal Cert.KernelIdeal.Gen Cert.GcnLayers

variable (V : (c : Dev nD) → (b : Ref sig .tc) → Buf (Elt Ideal) ((c : Thread nD τ).loc b))

theorem hz : (![0, 0] : Fin 2 → Nat) = fun _ => 0 := funext fun a => by fin_cases a <;> rfl

/-- Block indices over the grid: every window's block `t` is row block `t`. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0) :=
  (by decide +kernel : ∀ t : Fin grid4.N, _)

/-- The body's result at `(p, q)`: the feature times the product of the two per-edge columns at row `p`. -/
theorem pay_apply (s d : Vec Ideal S4096x1 .f32) (h : Vec Ideal S4096x1 .f32) (p : Fin 4096) (q : Fin 1) :
    k4_pay1 s d h (ix2 p q) = h (ix2 p q) * (s (ix2 p (0 : Fin 1)) * d (ix2 p (0 : Fin 1))) := by
  unfold k4_pay1
  simp only [shapeCast_self]
  obtain rfl : q = 0 := Subsingleton.elim _ _
  rfl

/-- If the three blocks hold rows `4096·T …` of `H`, `S`, `D`, the body's result at `(p, q)` is entry `(4096·T + p, q)` of
    the scaled features. -/
theorem point_eq (H : S4325376x1.Idx → EReal) (S D : S4325376x1.Idx → EReal)
    (xs xd : Vec Ideal S4096x1 .f32) (xh : Vec Ideal S4096x1 .f32) (T : ℕ) (hT : T < 1056) (p : Fin 4096) (q : Fin 1)
    (hh : xh (ix2 p q) = H (ix2 (⟨T * 4096 + p.val, by omega⟩ : Fin 4325376) q))
    (hs : xs (ix2 p (0 : Fin 1)) = S (ix2 (⟨T * 4096 + p.val, by omega⟩ : Fin 4325376) (0 : Fin 1)))
    (hd : xd (ix2 p (0 : Fin 1)) = D (ix2 (⟨T * 4096 + p.val, by omega⟩ : Fin 4325376) (0 : Fin 1))) :
    k4_pay1 xs xd xh (ix2 p q) = edgeScale H S D (ix2 (⟨T * 4096 + p.val, by omega⟩ : Fin 4325376) q) := by
  rw [pay_apply, edgeScale_apply, hh, hs, hd]

/-- The features' block at point `t` is rows `4096·t …` of the gathered features as the region finds them. -/
theorem blk_h (c : Dev nD) (t : Fin cfg4.N) (y : S4096x1.Idx) (k : S4325376x1.Idx)
    (hk0 : (k 0).val = t.val * 4096 + (y 0).val) (hk1 : (k 1).val = (y 1).val) :
    (iblk4 V c 0 t : Vec Ideal S4096x1 .f32) y = (V c main_v49 : S4325376x1.Idx → EReal) k := by
  have e0 := (idx_facts t).1.1
  have e1 := (idx_facts t).1.2
  unfold iblk4
  rw [View.read_apply]
  show V c main_v49 _ = _
  congr 1
  funext a
  apply Fin.ext
  match a with
  | ⟨0, _⟩ => show win4_0.index t 0 * 4096 + 1 * (y 0).val = (k 0).val; rw [e0, hk0]; omega
  | ⟨1, _⟩ => show win4_0.index t 1 * 1 + 1 * (y 1).val = (k 1).val; rw [e1, hk1]; omega

/-- The source column's block at point `t` is rows `4096·t …` of the source column. -/
theorem blk_s (c : Dev nD) (t : Fin cfg4.N) (y : S4096x1.Idx) (k : S4325376x1.Idx)
    (hk0 : (k 0).val = t.val * 4096 + (y 0).val) (hk1 : (k 1).val = (y 1).val) :
    (iblk4 V c 1 t : Vec Ideal S4096x1 .f32) y = (V c main_v19 : S4325376x1.Idx → EReal) k := by
  have e0 := (idx_facts t).2.1.1
  have e1 := (idx_facts t).2.1.2
  unfold iblk4
  rw [View.read_apply]
  show V c main_v19 _ = _
  congr 1
  funext a
  apply Fin.ext
  match a with
  | ⟨0, _⟩ => show win4_1.index t 0 * 4096 + 1 * (y 0).val = (k 0).val; rw [e0, hk0]; omega
  | ⟨1, _⟩ => show win4_1.index t 1 * 1 + 1 * (y 1).val = (k 1).val; rw [e1, hk1]; omega

/-- The destination column's block at point `t` is rows `4096·t …` of the destination column. -/
theorem blk_d (c : Dev nD) (t : Fin cfg4.N) (y : S4096x1.Idx) (k : S4325376x1.Idx)
    (hk0 : (k 0).val = t.val * 4096 + (y 0).val) (hk1 : (k 1).val = (y 1).val) :
    (iblk4 V c 2 t : Vec Ideal S4096x1 .f32) y = (V c main_v27 : S4325376x1.Idx → EReal) k := by
  have e0 := (idx_facts t).2.2.1.1
  have e1 := (idx_facts t).2.2.1.2
  unfold iblk4
  rw [View.read_apply]
  show V c main_v27 _ = _
  congr 1
  funext a
  apply Fin.ext
  match a with
  | ⟨0, _⟩ => show win4_2.index t 0 * 4096 + 1 * (y 0).val = (k 0).val; rw [e0, hk0]; omega
  | ⟨1, _⟩ => show win4_2.index t 1 * 1 + 1 * (y 1).val = (k 1).val; rw [e1, hk1]; omega

/-- What point `t` writes back is block `t` of the scaled features of the arrays the region finds. -/
theorem flushed_eq (c : Dev nD) (t : Fin cfg4.N) :
    (dat4 V c).flushed 3 t
      = ((cfg4.win 3).blk t).view.read (Elt Ideal)
          (edgeScale (V c main_v49 : S4325376x1.Idx → EReal) (V c main_v19 : S4325376x1.Idx → EReal)
            (V c main_v27 : S4325376x1.Idx → EReal)) := by
  show (cfg4.win 3).cut (grid4.coords t) ((dat4 V c).after 3 t) = _
  rw [after4_3]
  unfold out4_3
  rw [View.canon_unit_zero hz]
  simp only [View.ld_unit_zero (S := S4096x1) hz]
  have e6 := (idx_facts t).2.2.2.1
  have e7 := (idx_facts t).2.2.2.2
  have ht : t.val < 1056 := lt_of_lt_of_eq t.isLt N_4
  funext j
  obtain ⟨p, q, rfl⟩ : ∃ (p : Fin 4096) (q : Fin 1), j = ix2 p q := ⟨j 0, j 1, eq_ix2 j⟩
  refine (point_eq (V c main_v49) (V c main_v19) (V c main_v27) (iblk4 V c 1 t) (iblk4 V c 2 t) (iblk4 V c 0 t)
    t.val ht p q (blk_h V c t _ _ rfl rfl) (blk_s V c t _ _ rfl rfl) (blk_d V c t _ _ rfl rfl)).trans ?_
  rw [View.read_apply]
  congr 1
  funext a
  apply Fin.ext
  match a with
  | ⟨0, _⟩ => show t.val * 4096 + p.val = win4_3.index t 0 * 4096 + 1 * p.val; rw [e6]; omega
  | ⟨1, _⟩ => show q.val = win4_3.index t 1 * 1 + 1 * q.val; rw [e7]; omega

/-- An index of the output is in point `t`'s block iff each coordinate is in the block's range on its axis. -/
theorem mem_blk (t : Fin cfg4.N) (i : S4325376x1.Idx) :
    i ∈ ((cfg4.win 3).blk t).view.set
      ↔ ∀ a : Fin 2, win4_3.index t a * S4096x1.size a ≤ (i a).val
          ∧ (i a).val < win4_3.index t a * S4096x1.size a + S4096x1.size a := by
  show i ∈ ((View.whole main_v50).slice (win4_3.rect t)).set ↔ _
  rw [View.set_slice_whole, Rect.mem_set_unit]
  exact Iff.rfl

/-- Every row of the output lies in the block of the point `row / 4096`. -/
theorem cover (i : S4325376x1.Idx) : ∃ t : Fin cfg4.N, (cfg4.win 3).flush t = true ∧ i ∈ ((cfg4.win 3).blk t).view.set := by
  have hi0 : (i 0).val < 4325376 := (i 0).isLt
  have hi1 : (i 1).val < 1 := (i 1).isLt
  have hN : cfg4.N = 1056 := N_4
  let t : Fin cfg4.N := ⟨(i 0).val / 4096, by rw [hN]; omega⟩
  have e6 : win4_3.index t 0 = (i 0).val / 4096 := (idx_facts t).2.2.2.1
  have e7 := (idx_facts t).2.2.2.2
  refine ⟨t, flush4_3 t, ?_⟩
  rw [mem_blk]
  intro a
  match a with
  | ⟨0, _⟩ => show win4_3.index t 0 * 4096 ≤ (i 0).val ∧ (i 0).val < win4_3.index t 0 * 4096 + 4096; rw [e6]; omega
  | ⟨1, _⟩ => show win4_3.index t 1 * 1 ≤ (i 1).val ∧ (i 1).val < win4_3.index t 1 * 1 + 1; rw [e7]; omega

/-- THE OUTPUT ARRAY after the region: the gathered features scaled by the edges' weights, of the arrays the region
    finds. -/
theorem final (c : Dev nD) :
    (dat4 V c).arrAt 3 cfg4.N
      = edgeScale (V c main_v49 : S4325376x1.Idx → EReal) (V c main_v19 : S4325376x1.Idx → EReal)
          (V c main_v27 : S4325376x1.Idx → EReal) :=
  (dat4 V c).arrAt_eq_of_cover 3 _ (fun t _ => flushed_eq V c t) cover

end Cert.KernelIdeal.Scale2

end
-- ==== Proof.Logistic.lean ====
/-
  The second layer's bias and logistic function, block by block.

  The aggregate `A` ([131072, 1]) is cut into 16 blocks of 8192 rows; the bias is one entry `Y` ([1, 1]). At grid point
  `t` the body lays the entry down the block's 8192 rows, adds, and applies `x ↦ 1 / (1 + exp (−x))`; the result is
  written back as block `t` of the output. Row `8192·t + p` of the output depends on row `8192·t + p` of `A` and on `Y`
  only, and the 16 blocks tile the output: it ends as `biasLogistic A Y`.
-/
import proofs.«147779_j53317724013383_2_alg».proof.Proof.Gen.KernelIdeal.Frame
import proofs.«147779_j53317724013383_2_alg».proof.Proof.LibGraphLayers
import proofs.«147779_j53317724013383_2_alg».proof.Proof.LibRows
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Logistic

open Cert.KernelIdeal Cert.KernelIdeal.Gen Cert.GcnLayers

variable (V : (c : Dev nD) → (b : Ref sig .tc) → Buf (Elt Ideal) ((c : Thread nD τ).loc b))

theorem hz : (![0, 0] : Fin 2 → Nat) = fun _ => 0 := funext fun a => by fin_cases a <;> rfl

/-- Block indices over the grid: the aggregate's and the output's block `t` is row block `t`; the bias row is one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's result at `(p, q)`: the aggregate's entry plus the bias row's entry `q`, through the activation. -/
theorem pay_apply (y : Vec Ideal S1x1 .f32) (x : Vec Ideal S8192x1 .f32) (p : Fin 8192) (q : Fin 1) :
    k5_pay1 y x (ix2 p q) = Ideal.logistic (x (ix2 p q) + y (ix2 (0 : Fin 1) q)) := by
  have e := Cert.LibRows.broadcastTo_oneRow_apply (m := 8192) (y : S1x1.Idx → EReal)
    shapeCasts_S1x1_S1x1 broadcasts_S1x1_S8192x1 p q
  rw [shapeCast_self] at e
  unfold k5_pay1
  simp only [shapeCast_self]
  show Ideal.logistic (x (ix2 p q) + broadcastTo S8192x1 y broadcasts_S1x1_S8192x1 (ix2 p q)) = _
  rw [e]

/-- If the aggregate's block holds rows `8192·T …` of `A` and the bias block is the row `Y`, the body's result at `(p, q)`
    is entry `(8192·T + p, q)` of the layer's output. -/
theorem point_eq (A : S131072x1.Idx → EReal) (Y : S1x1.Idx → EReal)
    (xy : Vec Ideal S1x1 .f32) (xx : Vec Ideal S8192x1 .f32) (T : ℕ) (hT : T < 16) (p : Fin 8192) (q : Fin 1)
    (hx : xx (ix2 p q) = A (ix2 (⟨T * 8192 + p.val, by omega⟩ : Fin 131072) q))
    (hy : xy (ix2 (0 : Fin 1) q) = Y (ix2 (0 : Fin 1) q)) :
    k5_pay1 xy xx (ix2 p q) = biasLogistic A Y (ix2 (⟨T * 8192 + p.val, by omega⟩ : Fin 131072) q) := by
  rw [pay_apply, biasLogistic_apply, hx, hy]

/-- The aggregate's block at point `t` is rows `8192·t … 8192·t + 8191` of the aggregate as the region finds it. -/
theorem blk_x (c : Dev nD) (t : Fin cfg5.N) (y : S8192x1.Idx) (k : S131072x1.Idx)
    (hk0 : (k 0).val = t.val * 8192 + (y 0).val) (hk1 : (k 1).val = (y 1).val) :
    (iblk5 V c 0 t : Vec Ideal S8192x1 .f32) y = (V c main_v53 : S131072x1.Idx → EReal) k := by
  obtain ⟨e0, e1, -⟩ := idx_facts t
  unfold iblk5
  rw [View.read_apply]
  show V c main_v53 _ = _
  congr 1
  funext a
  apply Fin.ext
  match a with
  | ⟨0, _⟩ => show win5_0.index t 0 * 8192 + 1 * (y 0).val = (k 0).val; rw [e0, hk0]; omega
  | ⟨1, _⟩ => show win5_0.index t 1 * 1 + 1 * (y 1).val = (k 1).val; rw [e1, hk1]; omega

/-- The bias row's block at every point is the whole row. -/
theorem blk_y (c : Dev nD) (t : Fin cfg5.N) (y : S1x1.Idx) :
    (iblk5 V c 1 t : Vec Ideal S1x1 .f32) y = (V c main_v54 : S1x1.Idx → EReal) y := by
  obtain ⟨-, -, e2, e3, -⟩ := idx_facts t
  unfold iblk5
  rw [View.read_apply]
  show V c main_v54 _ = _
  congr 1
  funext a
  apply Fin.ext
  match a with
  | ⟨0, _⟩ => show win5_1.index t 0 * 1 + 1 * (y 0).val = (y 0).val; rw [e2]; omega
  | ⟨1, _⟩ => show win5_1.index t 1 * 1 + 1 * (y 1).val = (y 1).val; rw [e3]; omega

/-- What point `t` writes back is block `t` of the layer's output of the arrays the region finds. -/
theorem flushed_eq (c : Dev nD) (t : Fin cfg5.N) :
    (dat5 V c).flushed 2 t
      = ((cfg5.win 2).blk t).view.read (Elt Ideal)
          (biasLogistic (V c main_v53 : S131072x1.Idx → EReal) (V c main_v54 : S1x1.Idx → EReal)) := by
  show (cfg5.win 2).cut (grid5.coords t) ((dat5 V c).after 2 t) = _
  rw [after5_2]
  unfold out5_2
  rw [View.canon_unit_zero hz]
  simp only [View.ld_unit_zero (S := S8192x1) hz, View.ld_unit_zero (S := S1x1) hz]
  obtain ⟨-, -, -, -, e4, e5⟩ := idx_facts t
  have ht : t.val < 16 := lt_of_lt_of_eq t.isLt N_5
  funext j
  obtain ⟨p, q, rfl⟩ : ∃ (p : Fin 8192) (q : Fin 1), j = ix2 p q := ⟨j 0, j 1, eq_ix2 j⟩
  refine (point_eq (V c main_v53) (V c main_v54) (iblk5 V c 1 t) (iblk5 V c 0 t) t.val ht p q
    (blk_x V c t _ _ rfl rfl) (blk_y V c t _)).trans ?_
  rw [View.read_apply]
  congr 1
  funext a
  apply Fin.ext
  match a with
  | ⟨0, _⟩ => show t.val * 8192 + p.val = win5_2.index t 0 * 8192 + 1 * p.val; rw [e4]; omega
  | ⟨1, _⟩ => show q.val = win5_2.index t 1 * 1 + 1 * q.val; rw [e5]; omega

/-- An index of the output is in point `t`'s block iff each coordinate is in the block's range on its axis. -/
theorem mem_blk (t : Fin cfg5.N) (i : S131072x1.Idx) :
    i ∈ ((cfg5.win 2).blk t).view.set
      ↔ ∀ a : Fin 2, win5_2.index t a * S8192x1.size a ≤ (i a).val
          ∧ (i a).val < win5_2.index t a * S8192x1.size a + S8192x1.size a := by
  show i ∈ ((View.whole main_v55).slice (win5_2.rect t)).set ↔ _
  rw [View.set_slice_whole, Rect.mem_set_unit]
  exact Iff.rfl

/-- Every row of the output lies in the block of the point `row / 8192`. -/
theorem cover (i : S131072x1.Idx) : ∃ t : Fin cfg5.N, (cfg5.win 2).flush t = true ∧ i ∈ ((cfg5.win 2).blk t).view.set := by
  have hi0 : (i 0).val < 131072 := (i 0).isLt
  have hi1 : (i 1).val < 1 := (i 1).isLt
  have hN : cfg5.N = 16 := N_5
  let t : Fin cfg5.N := ⟨(i 0).val / 8192, by rw [hN]; omega⟩
  obtain ⟨-, -, -, -, e4, e5⟩ := idx_facts t
  have e4' : win5_2.index t 0 = (i 0).val / 8192 := e4
  refine ⟨t, flush5_2 t, ?_⟩
  rw [mem_blk]
  intro a
  match a with
  | ⟨0, _⟩ => show win5_2.index t 0 * 8192 ≤ (i 0).val ∧ (i 0).val < win5_2.index t 0 * 8192 + 8192; rw [e4']; omega
  | ⟨1, _⟩ => show win5_2.index t 1 * 1 ≤ (i 1).val ∧ (i 1).val < win5_2.index t 1 * 1 + 1; rw [e5]; omega

/-- THE OUTPUT ARRAY after the region: the layer's output of the aggregate and the bias row as the region finds them. -/
theorem final (c : Dev nD) :
    (dat5 V c).arrAt 2 cfg5.N
      = biasLogistic (V c main_v53 : S131072x1.Idx → EReal) (V c main_v54 : S1x1.Idx → EReal) :=
  (dat5 V c).arrAt_eq_of_cover 2 _ (fun t _ => flushed_eq V c t) cover

end Cert.KernelIdeal.Logistic

end
-- ==== Proof.Fold.lean ====
/-
  The kernel program's result, read back through its twelve segments.

  Write `Wk` for the contents of the device's buffers at the k-th segment boundary (`W0` the launch memory, `W12` the
  final one). Each lemma below reads one buffer at one boundary as a function of the six argument arrays: after a
  stretch of host operations a buffer the stretch writes holds its operation's value of the buffers it reads, and any
  other buffer what it held before; after a pipelined region the output array holds the layer operation of the region's
  input arrays (the region modules' `final`), and any other buffer what it held before. Only the buffers a later
  segment reads are followed. The last lemma, `w12_v64`, says the result buffer ends at `Net.net` of the arguments.
-/
import proofs.«147779_j53317724013383_2_alg».proof.Proof.Gen.KernelIdeal.Frame
import proofs.«147779_j53317724013383_2_alg».proof.Proof.Network
import proofs.«147779_j53317724013383_2_alg».proof.Proof.Dense1
import proofs.«147779_j53317724013383_2_alg».proof.Proof.Scale1
import proofs.«147779_j53317724013383_2_alg».proof.Proof.Relu
import proofs.«147779_j53317724013383_2_alg».proof.Proof.Dense2
import proofs.«147779_j53317724013383_2_alg».proof.Proof.Scale2
import proofs.«147779_j53317724013383_2_alg».proof.Proof.Logistic
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen Cert.GcnLayers

variable (m : (ℓ : Loc nD τ sig) → Buf (Elt Ideal) ℓ) (ρ : Dev nD → PrngReg)

/-! ## The six argument arrays as launched -/

/-- The node features. -/
abbrev aX (c : Dev nD) : Net.FArr S131072x2 := m ((c : Thread nD τ).loc main_arg0)
/-- The first layer's weights and bias. -/
abbrev aW1 (c : Dev nD) : Net.FArr S2x16 := m ((c : Thread nD τ).loc main_arg1)
abbrev aB1 (c : Dev nD) : Net.FArr S16 := m ((c : Thread nD τ).loc main_arg2)
/-- The second layer's weights and bias. -/
abbrev aW2 (c : Dev nD) : Net.FArr S16x1 := m ((c : Thread nD τ).loc main_arg3)
abbrev aB2 (c : Dev nD) : Net.FArr S1 := m ((c : Thread nD τ).loc main_arg4)
/-- The edge list. -/
abbrev aE (c : Dev nD) : Net.IArr S2x4194304 := m ((c : Thread nD τ).loc main_arg5)

/-! ## Boundary 1: after the host stretch `hostOps0` -/

theorem w1_v3 (c : Dev nD) : W1 m ρ c (Proc.devRef .tc main_v3) = Net.src (aE m c) := by
  show StableHlo.after hostOps0 (W0 m ρ c) (Proc.devRef .tc main_v3) = _
  after_results_simp
  rfl

theorem w1_v6 (c : Dev nD) : W1 m ρ c (Proc.devRef .tc main_v6) = Net.dst (aE m c) := by
  show StableHlo.after hostOps0 (W0 m ρ c) (Proc.devRef .tc main_v6) = _
  after_results_simp
  rfl

theorem w1_v19 (c : Dev nD) : W1 m ρ c (Proc.devRef .tc main_v19) = Net.colS (aE m c) := by
  show StableHlo.after hostOps0 (W0 m ρ c) (Proc.devRef .tc main_v19) = _
  after_results_simp
  rfl

theorem w1_v27 (c : Dev nD) : W1 m ρ c (Proc.devRef .tc main_v27) = Net.colD (aE m c) := by
  show StableHlo.after hostOps0 (W0 m ρ c) (Proc.devRef .tc main_v27) = _
  after_results_simp
  rfl

theorem w1_arg0 (c : Dev nD) : W1 m ρ c (Proc.devRef .tc main_arg0) = aX m c := by
  show StableHlo.after hostOps0 (W0 m ρ c) (Proc.devRef .tc main_arg0) = _
  after_results_simp

theorem w1_arg1 (c : Dev nD) : W1 m ρ c (Proc.devRef .tc main_arg1) = aW1 m c := by
  show StableHlo.after hostOps0 (W0 m ρ c) (Proc.devRef .tc main_arg1) = _
  after_results_simp

theorem w1_arg2 (c : Dev nD) : W1 m ρ c (Proc.devRef .tc main_arg2) = aB1 m c := by
  show StableHlo.after hostOps0 (W0 m ρ c) (Proc.devRef .tc main_arg2) = _
  after_results_simp

theorem w1_arg3 (c : Dev nD) : W1 m ρ c (Proc.devRef .tc main_arg3) = aW2 m c := by
  show StableHlo.after hostOps0 (W0 m ρ c) (Proc.devRef .tc main_arg3) = _
  after_results_simp

theorem w1_arg4 (c : Dev nD) : W1 m ρ c (Proc.devRef .tc main_arg4) = aB2 m c := by
  show StableHlo.after hostOps0 (W0 m ρ c) (Proc.devRef .tc main_arg4) = _
  after_results_simp

theorem w1_arg5 (c : Dev nD) : W1 m ρ c (Proc.devRef .tc main_arg5) = aE m c := by
  show StableHlo.after hostOps0 (W0 m ρ c) (Proc.devRef .tc main_arg5) = _
  after_results_simp

/-! ## Boundary 2: after region 0 -/

theorem w2_v28 (c : Dev nD) : W2 m ρ c (Proc.devRef .tc main_v28) = dense (aX m c) (aW1 m c) :=
  (W2_arr m ρ c 2).trans ((Dense1.final (V1 m ρ) c).trans (by
    rw [show V1 m ρ c main_arg0 = _ from w1_arg0 m ρ c, show V1 m ρ c main_arg1 = _ from w1_arg1 m ρ c]))

theorem w2_v3 (c : Dev nD) : W2 m ρ c (Proc.devRef .tc main_v3) = Net.src (aE m c) :=
  (W2_of_ne m ρ c main_v3 (by decide)).trans (w1_v3 m ρ c)

theorem w2_v6 (c : Dev nD) : W2 m ρ c (Proc.devRef .tc main_v6) = Net.dst (aE m c) :=
  (W2_of_ne m ρ c main_v6 (by decide)).trans (w1_v6 m ρ c)

theorem w2_v19 (c : Dev nD) : W2 m ρ c (Proc.devRef .tc main_v19) = Net.colS (aE m c) :=
  (W2_of_ne m ρ c main_v19 (by decide)).trans (w1_v19 m ρ c)

theorem w2_v27 (c : Dev nD) : W2 m ρ c (Proc.devRef .tc main_v27) = Net.colD (aE m c) :=
  (W2_of_ne m ρ c main_v27 (by decide)).trans (w1_v27 m ρ c)

theorem w2_arg2 (c : Dev nD) : W2 m ρ c (Proc.devRef .tc main_arg2) = aB1 m c :=
  (W2_of_ne m ρ c main_arg2 (by decide)).trans (w1_arg2 m ρ c)

theorem w2_arg3 (c : Dev nD) : W2 m ρ c (Proc.devRef .tc main_arg3) = aW2 m c :=
  (W2_of_ne m ρ c main_arg3 (by decide)).trans (w1_arg3 m ρ c)

theorem w2_arg4 (c : Dev nD) : W2 m ρ c (Proc.devRef .tc main_arg4) = aB2 m c :=
  (W2_of_ne m ρ c main_arg4 (by decide)).trans (w1_arg4 m ρ c)

theorem w2_arg5 (c : Dev nD) : W2 m ρ c (Proc.devRef .tc main_arg5) = aE m c :=
  (W2_of_ne m ρ c main_arg5 (by decide)).trans (w1_arg5 m ρ c)

/-! ## Boundary 3: after the host stretch `hostOps1` -/

theorem w3_v35 (c : Dev nD) : W3 m ρ c (Proc.devRef .tc main_v35) = Net.gather16 (aE m c) (dense (aX m c) (aW1 m c)) := by
  show StableHlo.after hostOps1 (W2 m ρ c) (Proc.devRef .tc main_v35) = _
  after_results
  rw [w2_v28 m ρ c, w2_v3 m ρ c]
  rfl

theorem w3_v3 (c : Dev nD) : W3 m ρ c (Proc.devRef .tc main_v3) = Net.src (aE m c) := by
  show StableHlo.after hostOps1 (W2 m ρ c) (Proc.devRef .tc main_v3) = _
  after_results
  exact w2_v3 m ρ c

theorem w3_v6 (c : Dev nD) : W3 m ρ c (Proc.devRef .tc main_v6) = Net.dst (aE m c) := by
  show StableHlo.after hostOps1 (W2 m ρ c) (Proc.devRef .tc main_v6) = _
  after_results
  exact w2_v6 m ρ c

theorem w3_v19 (c : Dev nD) : W3 m ρ c (Proc.devRef .tc main_v19) = Net.colS (aE m c) := by
  show StableHlo.after hostOps1 (W2 m ρ c) (Proc.devRef .tc main_v19) = _
  after_results
  exact w2_v19 m ρ c

theorem w3_v27 (c : Dev nD) : W3 m ρ c (Proc.devRef .tc main_v27) = Net.colD (aE m c) := by
  show StableHlo.after hostOps1 (W2 m ρ c) (Proc.devRef .tc main_v27) = _
  after_results
  exact w2_v27 m ρ c

theorem w3_arg2 (c : Dev nD) : W3 m ρ c (Proc.devRef .tc main_arg2) = aB1 m c := by
  show StableHlo.after hostOps1 (W2 m ρ c) (Proc.devRef .tc main_arg2) = _
  after_results
  exact w2_arg2 m ρ c

theorem w3_arg3 (c : Dev nD) : W3 m ρ c (Proc.devRef .tc main_arg3) = aW2 m c := by
  show StableHlo.after hostOps1 (W2 m ρ c) (Proc.devRef .tc main_arg3) = _
  after_results
  exact w2_arg3 m ρ c

theorem w3_arg4 (c : Dev nD) : W3 m ρ c (Proc.devRef .tc main_arg4) = aB2 m c := by
  show StableHlo.after hostOps1 (W2 m ρ c) (Proc.devRef .tc main_arg4) = _
  after_results
  exact w2_arg4 m ρ c

theorem w3_arg5 (c : Dev nD) : W3 m ρ c (Proc.devRef .tc main_arg5) = aE m c := by
  show StableHlo.after hostOps1 (W2 m ρ c) (Proc.devRef .tc main_arg5) = _
  after_results
  exact w2_arg5 m ρ c

/-! ## Boundary 4: after region 1 -/

theorem w4_v36 (c : Dev nD) : W4 m ρ c (Proc.devRef .tc main_v36) = edgeScale (Net.gather16 (aE m c) (dense (aX m c) (aW1 m c))) (Net.colS (aE m c)) (Net.colD (aE m c)) :=
  (W4_arr m ρ c 3).trans ((Scale1.final (V3 m ρ) c).trans (by
    rw [show V3 m ρ c main_v35 = _ from w3_v35 m ρ c, show V3 m ρ c main_v19 = _ from w3_v19 m ρ c, show V3 m ρ c main_v27 = _ from w3_v27 m ρ c]))

theorem w4_v3 (c : Dev nD) : W4 m ρ c (Proc.devRef .tc main_v3) = Net.src (aE m c) :=
  (W4_of_ne m ρ c main_v3 (by decide)).trans (w3_v3 m ρ c)

theorem w4_v6 (c : Dev nD) : W4 m ρ c (Proc.devRef .tc main_v6) = Net.dst (aE m c) :=
  (W4_of_ne m ρ c main_v6 (by decide)).trans (w3_v6 m ρ c)

theorem w4_v19 (c : Dev nD) : W4 m ρ c (Proc.devRef .tc main_v19) = Net.colS (aE m c) :=
  (W4_arr m ρ c 1).trans (((dat1 (V3 m ρ) c).arrAt_in 1 rfl _).trans ((A_eq1 (V3 m ρ) c 1).trans (w3_v19 m ρ c)))

theorem w4_v27 (c : Dev nD) : W4 m ρ c (Proc.devRef .tc main_v27) = Net.colD (aE m c) :=
  (W4_arr m ρ c 2).trans (((dat1 (V3 m ρ) c).arrAt_in 2 rfl _).trans ((A_eq1 (V3 m ρ) c 2).trans (w3_v27 m ρ c)))

theorem w4_arg2 (c : Dev nD) : W4 m ρ c (Proc.devRef .tc main_arg2) = aB1 m c :=
  (W4_of_ne m ρ c main_arg2 (by decide)).trans (w3_arg2 m ρ c)

theorem w4_arg3 (c : Dev nD) : W4 m ρ c (Proc.devRef .tc main_arg3) = aW2 m c :=
  (W4_of_ne m ρ c main_arg3 (by decide)).trans (w3_arg3 m ρ c)

theorem w4_arg4 (c : Dev nD) : W4 m ρ c (Proc.devRef .tc main_arg4) = aB2 m c :=
  (W4_of_ne m ρ c main_arg4 (by decide)).trans (w3_arg4 m ρ c)

theorem w4_arg5 (c : Dev nD) : W4 m ρ c (Proc.devRef .tc main_arg5) = aE m c :=
  (W4_of_ne m ρ c main_arg5 (by decide)).trans (w3_arg5 m ρ c)

/-! ## Boundary 5: after the host stretch `hostOps2` -/

theorem w5_v39 (c : Dev nD) : W5 m ρ c (Proc.devRef .tc main_v39) = Net.agg1 (aX m c) (aW1 m c) (aE m c) := by
  show StableHlo.after hostOps2 (W4 m ρ c) (Proc.devRef .tc main_v39) = _
  after_results
  rw [w4_v36 m ρ c, w4_v6 m ρ c]
  rfl

theorem w5_v40 (c : Dev nD) : W5 m ρ c (Proc.devRef .tc main_v40) = Net.biasRow1 (aB1 m c) := by
  show StableHlo.after hostOps2 (W4 m ρ c) (Proc.devRef .tc main_v40) = _
  after_results
  rw [w4_arg2 m ρ c]
  rfl

theorem w5_v3 (c : Dev nD) : W5 m ρ c (Proc.devRef .tc main_v3) = Net.src (aE m c) := by
  show StableHlo.after hostOps2 (W4 m ρ c) (Proc.devRef .tc main_v3) = _
  after_results
  exact w4_v3 m ρ c

theorem w5_v6 (c : Dev nD) : W5 m ρ c (Proc.devRef .tc main_v6) = Net.dst (aE m c) := by
  show StableHlo.after hostOps2 (W4 m ρ c) (Proc.devRef .tc main_v6) = _
  after_results
  exact w4_v6 m ρ c

theorem w5_v19 (c : Dev nD) : W5 m ρ c (Proc.devRef .tc main_v19) = Net.colS (aE m c) := by
  show StableHlo.after hostOps2 (W4 m ρ c) (Proc.devRef .tc main_v19) = _
  after_results
  exact w4_v19 m ρ c

theorem w5_v27 (c : Dev nD) : W5 m ρ c (Proc.devRef .tc main_v27) = Net.colD (aE m c) := by
  show StableHlo.after hostOps2 (W4 m ρ c) (Proc.devRef .tc main_v27) = _
  after_results
  exact w4_v27 m ρ c

theorem w5_arg3 (c : Dev nD) : W5 m ρ c (Proc.devRef .tc main_arg3) = aW2 m c := by
  show StableHlo.after hostOps2 (W4 m ρ c) (Proc.devRef .tc main_arg3) = _
  after_results
  exact w4_arg3 m ρ c

theorem w5_arg4 (c : Dev nD) : W5 m ρ c (Proc.devRef .tc main_arg4) = aB2 m c := by
  show StableHlo.after hostOps2 (W4 m ρ c) (Proc.devRef .tc main_arg4) = _
  after_results
  exact w4_arg4 m ρ c

theorem w5_arg5 (c : Dev nD) : W5 m ρ c (Proc.devRef .tc main_arg5) = aE m c := by
  show StableHlo.after hostOps2 (W4 m ρ c) (Proc.devRef .tc main_arg5) = _
  after_results
  exact w4_arg5 m ρ c

/-! ## Boundary 6: after region 2 -/

theorem w6_v41 (c : Dev nD) : W6 m ρ c (Proc.devRef .tc main_v41) = Net.hidden (aX m c) (aW1 m c) (aB1 m c) (aE m c) :=
  (W6_arr m ρ c 2).trans ((Relu.final (V5 m ρ) c).trans (by
    rw [show V5 m ρ c main_v39 = _ from w5_v39 m ρ c, show V5 m ρ c main_v40 = _ from w5_v40 m ρ c]
    rfl))

theorem w6_v3 (c : Dev nD) : W6 m ρ c (Proc.devRef .tc main_v3) = Net.src (aE m c) :=
  (W6_of_ne m ρ c main_v3 (by decide)).trans (w5_v3 m ρ c)

theorem w6_v6 (c : Dev nD) : W6 m ρ c (Proc.devRef .tc main_v6) = Net.dst (aE m c) :=
  (W6_of_ne m ρ c main_v6 (by decide)).trans (w5_v6 m ρ c)

theorem w6_v19 (c : Dev nD) : W6 m ρ c (Proc.devRef .tc main_v19) = Net.colS (aE m c) :=
  (W6_of_ne m ρ c main_v19 (by decide)).trans (w5_v19 m ρ c)

theorem w6_v27 (c : Dev nD) : W6 m ρ c (Proc.devRef .tc main_v27) = Net.colD (aE m c) :=
  (W6_of_ne m ρ c main_v27 (by decide)).trans (w5_v27 m ρ c)

theorem w6_arg3 (c : Dev nD) : W6 m ρ c (Proc.devRef .tc main_arg3) = aW2 m c :=
  (W6_of_ne m ρ c main_arg3 (by decide)).trans (w5_arg3 m ρ c)

theorem w6_arg4 (c : Dev nD) : W6 m ρ c (Proc.devRef .tc main_arg4) = aB2 m c :=
  (W6_of_ne m ρ c main_arg4 (by decide)).trans (w5_arg4 m ρ c)

theorem w6_arg5 (c : Dev nD) : W6 m ρ c (Proc.devRef .tc main_arg5) = aE m c :=
  (W6_of_ne m ρ c main_arg5 (by decide)).trans (w5_arg5 m ρ c)

/-! ## Boundary 7: after region 3 -/

theorem w7_v42 (c : Dev nD) : W7 m ρ c (Proc.devRef .tc main_v42) = dense (Net.hidden (aX m c) (aW1 m c) (aB1 m c) (aE m c)) (aW2 m c) :=
  (W7_arr m ρ c 2).trans ((Dense2.final (V6 m ρ) c).trans (by
    rw [show V6 m ρ c main_v41 = _ from w6_v41 m ρ c, show V6 m ρ c main_arg3 = _ from w6_arg3 m ρ c]))

theorem w7_v3 (c : Dev nD) : W7 m ρ c (Proc.devRef .tc main_v3) = Net.src (aE m c) :=
  (W7_of_ne m ρ c main_v3 (by decide)).trans (w6_v3 m ρ c)

theorem w7_v6 (c : Dev nD) : W7 m ρ c (Proc.devRef .tc main_v6) = Net.dst (aE m c) :=
  (W7_of_ne m ρ c main_v6 (by decide)).trans (w6_v6 m ρ c)

theorem w7_v19 (c : Dev nD) : W7 m ρ c (Proc.devRef .tc main_v19) = Net.colS (aE m c) :=
  (W7_of_ne m ρ c main_v19 (by decide)).trans (w6_v19 m ρ c)

theorem w7_v27 (c : Dev nD) : W7 m ρ c (Proc.devRef .tc main_v27) = Net.colD (aE m c) :=
  (W7_of_ne m ρ c main_v27 (by decide)).trans (w6_v27 m ρ c)

theorem w7_arg4 (c : Dev nD) : W7 m ρ c (Proc.devRef .tc main_arg4) = aB2 m c :=
  (W7_of_ne m ρ c main_arg4 (by decide)).trans (w6_arg4 m ρ c)

theorem w7_arg5 (c : Dev nD) : W7 m ρ c (Proc.devRef .tc main_arg5) = aE m c :=
  (W7_of_ne m ρ c main_arg5 (by decide)).trans (w6_arg5 m ρ c)

/-! ## Boundary 8: after the host stretch `hostOps4` -/

theorem w8_v49 (c : Dev nD) : W8 m ρ c (Proc.devRef .tc main_v49) = Net.gather1 (aE m c) (dense (Net.hidden (aX m c) (aW1 m c) (aB1 m c) (aE m c)) (aW2 m c)) := by
  show StableHlo.after hostOps4 (W7 m ρ c) (Proc.devRef .tc main_v49) = _
  after_results
  rw [w7_v42 m ρ c, w7_v3 m ρ c]
  rfl

theorem w8_v6 (c : Dev nD) : W8 m ρ c (Proc.devRef .tc main_v6) = Net.dst (aE m c) := by
  show StableHlo.after hostOps4 (W7 m ρ c) (Proc.devRef .tc main_v6) = _
  after_results
  exact w7_v6 m ρ c

theorem w8_v19 (c : Dev nD) : W8 m ρ c (Proc.devRef .tc main_v19) = Net.colS (aE m c) := by
  show StableHlo.after hostOps4 (W7 m ρ c) (Proc.devRef .tc main_v19) = _
  after_results
  exact w7_v19 m ρ c

theorem w8_v27 (c : Dev nD) : W8 m ρ c (Proc.devRef .tc main_v27) = Net.colD (aE m c) := by
  show StableHlo.after hostOps4 (W7 m ρ c) (Proc.devRef .tc main_v27) = _
  after_results
  exact w7_v27 m ρ c

theorem w8_arg4 (c : Dev nD) : W8 m ρ c (Proc.devRef .tc main_arg4) = aB2 m c := by
  show StableHlo.after hostOps4 (W7 m ρ c) (Proc.devRef .tc main_arg4) = _
  after_results
  exact w7_arg4 m ρ c

theorem w8_arg5 (c : Dev nD) : W8 m ρ c (Proc.devRef .tc main_arg5) = aE m c := by
  show StableHlo.after hostOps4 (W7 m ρ c) (Proc.devRef .tc main_arg5) = _
  after_results
  exact w7_arg5 m ρ c

/-! ## Boundary 9: after region 4 -/

theorem w9_v50 (c : Dev nD) : W9 m ρ c (Proc.devRef .tc main_v50) = edgeScale (Net.gather1 (aE m c) (dense (Net.hidden (aX m c) (aW1 m c) (aB1 m c) (aE m c)) (aW2 m c))) (Net.colS (aE m c)) (Net.colD (aE m c)) :=
  (W9_arr m ρ c 3).trans ((Scale2.final (V8 m ρ) c).trans (by
    rw [show V8 m ρ c main_v49 = _ from w8_v49 m ρ c, show V8 m ρ c main_v19 = _ from w8_v19 m ρ c, show V8 m ρ c main_v27 = _ from w8_v27 m ρ c]))

theorem w9_v6 (c : Dev nD) : W9 m ρ c (Proc.devRef .tc main_v6) = Net.dst (aE m c) :=
  (W9_of_ne m ρ c main_v6 (by decide)).trans (w8_v6 m ρ c)

theorem w9_arg4 (c : Dev nD) : W9 m ρ c (Proc.devRef .tc main_arg4) = aB2 m c :=
  (W9_of_ne m ρ c main_arg4 (by decide)).trans (w8_arg4 m ρ c)

theorem w9_arg5 (c : Dev nD) : W9 m ρ c (Proc.devRef .tc main_arg5) = aE m c :=
  (W9_of_ne m ρ c main_arg5 (by decide)).trans (w8_arg5 m ρ c)

/-! ## Boundary 10: after the host stretch `hostOps5` -/

theorem w10_v53 (c : Dev nD) : W10 m ρ c (Proc.devRef .tc main_v53) = Net.agg2 (Net.hidden (aX m c) (aW1 m c) (aB1 m c) (aE m c)) (aW2 m c) (aE m c) := by
  show StableHlo.after hostOps5 (W9 m ρ c) (Proc.devRef .tc main_v53) = _
  after_results
  rw [w9_v50 m ρ c, w9_v6 m ρ c]
  rfl

theorem w10_v54 (c : Dev nD) : W10 m ρ c (Proc.devRef .tc main_v54) = Net.biasRow2 (aB2 m c) := by
  show StableHlo.after hostOps5 (W9 m ρ c) (Proc.devRef .tc main_v54) = _
  after_results
  rw [w9_arg4 m ρ c]
  rfl

theorem w10_arg5 (c : Dev nD) : W10 m ρ c (Proc.devRef .tc main_arg5) = aE m c := by
  show StableHlo.after hostOps5 (W9 m ρ c) (Proc.devRef .tc main_arg5) = _
  after_results
  exact w9_arg5 m ρ c

/-! ## Boundary 11: after region 5 -/

theorem w11_v55 (c : Dev nD) : W11 m ρ c (Proc.devRef .tc main_v55) = Net.scores (Net.hidden (aX m c) (aW1 m c) (aB1 m c) (aE m c)) (aW2 m c) (aB2 m c) (aE m c) :=
  (W11_arr m ρ c 2).trans ((Logistic.final (V10 m ρ) c).trans (by
    rw [show V10 m ρ c main_v53 = _ from w10_v53 m ρ c, show V10 m ρ c main_v54 = _ from w10_v54 m ρ c]
    rfl))

theorem w11_arg5 (c : Dev nD) : W11 m ρ c (Proc.devRef .tc main_arg5) = aE m c :=
  (W11_of_ne m ρ c main_arg5 (by decide)).trans (w10_arg5 m ρ c)

/-! ## Boundary 12: after the host stretch `hostOps6` -/

theorem w12_v64 (c : Dev nD) : W12 m ρ c (Proc.devRef .tc main_v64) = Net.net (aX m c) (aW1 m c) (aB1 m c) (aW2 m c) (aB2 m c) (aE m c) := by
  show StableHlo.after hostOps6 (W11 m ρ c) (Proc.devRef .tc main_v64) = _
  after_results
  rw [w11_v55 m ρ c, w11_arg5 m ρ c]
  rfl

end Cert.KernelIdeal.Fold

end
-- ==== Proof.RefSide.lean ====
/-
  The reference program's result is the network.

  The reference's run ends with its result buffer at one composed term of the six arguments. That term spells the six
  layer operations the host's way: two contractions; for each layer the two per-edge vectors multiplied, laid out as a
  column (and, in the first layer, along the 16 feature columns) and multiplied into the gathered rows; the bias vector
  broadcast to a row, laid down every row, added, and passed through a maximum with the zero array (first layer) or
  through `1 / (1 + exp (−·))` (second layer). Each spelling is rewritten to the layer operation it equals
  (LibGraphLayers.lean). Everything else in the term — the edge list with self loops, the degrees and their inverse square
  roots, the gathers and scatter-adds — is operation by operation what `Net.net` is made of, so the two sides are then
  one term. (The reference computes the degrees twice, once per layer, from the same edge list.)
-/
import proofs.«147779_j53317724013383_2_alg».proof.Proof.Gen.ReferenceIdeal.Run
import proofs.«147779_j53317724013383_2_alg».proof.Proof.Network
import proofs.«147779_j53317724013383_2_alg».proof.Proof.LibGraphLayers

set_option maxRecDepth 16384

noncomputable section

namespace Cert.ReferenceIdeal.RefNet

open Cert.ReferenceIdeal Cert.ReferenceIdeal.Value Cert.GcnLayers
open Idealize.ShloMosaic Idealize.ShloMosaic.TcCoe Idealize.SL.Sem
open Cert.ReferenceIdeal.Facts₀ Cert.ReferenceIdeal.Facts

/-! ## The six host spellings, at the reference's shapes -/

theorem dense1 (X : FVec Ideal S131072x2 .f32) (W : FVec Ideal S2x16 .f32) :
    Host.dotGeneral dot_S131072x2_S2x16_S131072x16_1_0_0_1_n_n none X W = dense X W :=
  hostDot_eq_dense dot_S131072x2_S2x16_S131072x16_1_0_0_1_n_n_wf none X W

theorem dense2 (X : FVec Ideal S131072x16 .f32) (W : FVec Ideal S16x1 .f32) :
    Host.dotGeneral dot_S131072x16_S16x1_S131072x1_1_0_0_1_n_n none X W = dense X W :=
  hostDot_eq_dense dot_S131072x16_S16x1_S131072x1_1_0_0_1_n_n_wf none X W

theorem scale1 (H : FVec Ideal S4325376x16 .f32) (d1 d2 : FVec Ideal S4325376 .f32) :
    mulf H (broadcastInDim S4325376x16 ![0, 1] bcast_S4325376x1_S4325376x16_0_1
        (broadcastInDim S4325376x1 ![0] bcast_S4325376_S4325376x1_0 (mulf d1 d2)))
      = edgeScale H (shapeCast Cert.KernelIdeal.S4325376x1 d1 Cert.KernelIdeal.Facts₀.shapeCasts_S4325376_S4325376x1)
          (shapeCast Cert.KernelIdeal.S4325376x1 d2 Cert.KernelIdeal.Facts₀.shapeCasts_S4325376_S4325376x1) :=
  hostScale_eq_edgeScale _ _ _ H d1 d2

theorem scale2 (H : FVec Ideal S4325376x1 .f32) (d1 d2 : FVec Ideal S4325376 .f32) :
    mulf H (broadcastInDim S4325376x1 ![0] bcast_S4325376_S4325376x1_0 (mulf d1 d2))
      = edgeScale H (shapeCast Cert.KernelIdeal.S4325376x1 d1 Cert.KernelIdeal.Facts₀.shapeCasts_S4325376_S4325376x1)
          (shapeCast Cert.KernelIdeal.S4325376x1 d2 Cert.KernelIdeal.Facts₀.shapeCasts_S4325376_S4325376x1) :=
  hostScaleCol_eq_edgeScale _ _ H d1 d2

theorem relu (A : FVec Ideal S131072x16 .f32) (b : FVec Ideal S16 .f32) :
    maximumf (addf A (broadcastInDim S131072x16 ![0, 1] bcast_S1x16_S131072x16_0_1
        (broadcastInDim S1x16 ![1] bcast_S16_S1x16_1 b)))
        (broadcastInDim S131072x16 ![] bcast_S_S131072x16 (constant S_ .f32 0x00000000#32))
      = Cert.LibAffine.biasRelu A (shapeCast Cert.KernelIdeal.S1x16 b Cert.KernelIdeal.Facts₀.shapeCasts_S16_S1x16) :=
  hostRelu_eq_biasRelu _ _ _ _ A b

theorem logistic (A : FVec Ideal S131072x1 .f32) (b : FVec Ideal S1 .f32) :
    Host.divf (broadcastInDim S131072x1 ![] bcast_S_S131072x1 (constant S_ .f32 0x3F800000#32))
        (addf (broadcastInDim S131072x1 ![] bcast_S_S131072x1 (constant S_ .f32 0x3F800000#32))
          (Host.exp (Host.negf (addf A
            (broadcastInDim S131072x1 ![0, 1] bcast_S1x1_S131072x1_0_1 (broadcastInDim S1x1 ![1] bcast_S1_S1x1_1 b))))))
      = biasLogistic A (shapeCast Cert.KernelIdeal.S1x1 b Cert.KernelIdeal.Facts₀.shapeCasts_S1_S1x1) :=
  hostLogistic_eq_biasLogistic _ _ _ _ A b

/-! ## The result -/

/-- The reference run's result term is the network of the six arguments as launched. -/
theorem result_eq (m : (ℓ : Loc nD τ sig) → Buf (Elt Ideal) ℓ) (c : Dev nD) :
    res_main_v95 (F := Ideal) m c
      = Cert.KernelIdeal.Net.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v95
  rw [logistic, scale2, dense2, relu, scale1, dense1]
  rfl

end Cert.ReferenceIdeal.RefNet

end
-- ==== Proof.lean ====
/-
  A two-layer graph convolution over 131072 nodes and 4194304 edges (plus one self loop per node), computed two ways:
  by a program that runs its two matrix products, its two edge-weightings and its two bias-and-activation steps as six
  pipelined kernels between host gathers and scatter-adds, and by a reference that does everything with host operations.
  Read over the exact extended reals both end with the same array: each original edge's source node's score,

      score = logistic (A · (relu (A · (x W1) + b1)) W2 + b2),     A = D^(-1/2) (adjacency + identity) D^(-1/2),

  where "A ·" is spelled as: gather the source row of every edge, multiply it by the product of the inverse square roots
  of the degrees at the edge's two ends, add the rows up per destination node.

  The two programs perform the same additions and multiplications in the same order; they differ only in how an
  operation is laid out (a matrix product cut into 16 row blocks against one contraction; a per-edge weight kept as a
  column against a vector broadcast twice; a bias kept as a one-row matrix against a vector broadcast twice;
  `tpu.logistic` against `1 / (1 + exp (−x))` written out). So no algebraic law is needed, and nothing here depends on
  the inputs being finite or on the edge list naming nodes that exist: the gathers and scatter-adds are the same
  operations applied to the same numbers on both sides.

  - LibGraphLayers.lean: the four layer operations as whole-array functions, each equal to its host spelling.
  - Network.lean: the network `Net.net` as one function of the six arguments.
  - Dense1, Scale1, Relu, Dense2, Scale2, Logistic: each kernel's output array is its layer operation of its input arrays
    (every block depends on the matching rows only, and the blocks tile the output).
  - KernelRun.lean, Fold.lean: the kernel program's run, and its result buffer read back through the twelve segments.
  - RefSide.lean: the reference's result term is the network.
-/
import proofs.«147779_j53317724013383_2_alg».proof.Defs
import proofs.«147779_j53317724013383_2_alg».proof.Proof.Gen.Kernel
import proofs.«147779_j53317724013383_2_alg».proof.Proof.Gen.Kernel.Frame
import proofs.«147779_j53317724013383_2_alg».proof.Proof.Gen.KernelIdeal
import proofs.«147779_j53317724013383_2_alg».proof.Proof.Gen.KernelIdeal.Frame
import proofs.«147779_j53317724013383_2_alg».proof.Proof.Gen.ReferenceIdeal
import proofs.«147779_j53317724013383_2_alg».proof.Proof.Gen.ReferenceIdeal.Run
import proofs.«147779_j53317724013383_2_alg».proof.Proof.Gen.Pre_finite_inputs
import proofs.«147779_j53317724013383_2_alg».proof.Proof.KernelRun
import proofs.«147779_j53317724013383_2_alg».proof.Proof.Fold
import proofs.«147779_j53317724013383_2_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: nothing was rewritten. -/
theorem preserves : Cert.preserves_Kernel_KernelIdeal := trivial

/-- From memories that agree on the six arguments both programs end with the network of those arguments. -/
theorem algebraic : Cert.algebraic_KernelIdeal_ReferenceIdeal := by
  intro m ρ m' ρ' _ hagree
  refine ⟨fun c => Cert.KernelIdeal.Net.net (Cert.KernelIdeal.Fold.aX m c) (Cert.KernelIdeal.Fold.aW1 m c)
      (Cert.KernelIdeal.Fold.aB1 m c) (Cert.KernelIdeal.Fold.aW2 m c) (Cert.KernelIdeal.Fold.aB2 m c)
      (Cert.KernelIdeal.Fold.aE m c), ?_, ?_⟩
  · exact (θ_run Cert.KernelIdeal.defs _ _).mono
      (fun _ h c => ⟨(h c).1.trans (Cert.KernelIdeal.Fold.w12_v64 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefNet.result_eq m' c]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
